-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x197x768 : Shape := ⟨3, ![64, 197, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S64x197x768 : S_.BroadcastsInDim S64x197x768 (![] : Fin 0 → Fin S64x197x768.rank)
  reducesTo_S64x197x768_S_d0_1_2 : S64x197x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S64x197x768 .f32) (main_arg1 : FVec F S2304x768 .f32) (main_arg2 : FVec F S768x768 .f32) (main_arg3 : FVec F S768 .f32) : IVec S_ 1 :=
  let main_v0 : FVec F S64x197x768 .f32 := Host.absf main_arg0
  let main_cst : FVec F S_ .f32 := constant S_ .f32 0x7F800000#32
  let main_v1 : FVec F S64x197x768 .f32 := broadcastInDim S64x197x768 ![] bcast_S_S64x197x768 main_cst
  let main_v2 : IVec S64x197x768 1 := cmpf .olt main_v0 main_v1
  let main_c : IVec S_ 1 := constantI S_ 1 1#1
  let main_v3 : IVec S_ 1 := (fun x v => Host.reduce IntOp.andi x v reducesTo_S64x197x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S64x197x768 : Shape := ⟨3, ![64, 197, 768]⟩
abbrev S2304x768 : Shape := ⟨2, ![2304, 768]⟩
abbrev S768x768 : Shape := ⟨2, ![768, 768]⟩
abbrev S768 : Shape := ⟨1, ![768]⟩
abbrev S768x2304 : Shape := ⟨2, ![768, 2304]⟩
abbrev S64x197x2304 : Shape := ⟨3, ![64, 197, 2304]⟩
abbrev S1x197x768 : Shape := ⟨3, ![1, 197, 768]⟩
abbrev S1x197x2304 : Shape := ⟨3, ![1, 197, 2304]⟩
abbrev S197x768 : Shape := ⟨2, ![197, 768]⟩
abbrev S197x2304 : Shape := ⟨2, ![197, 2304]⟩
abbrev S64x197x12x64 : Shape := ⟨4, ![64, 197, 12, 64]⟩
abbrev S64x12x197x64 : Shape := ⟨4, ![64, 12, 197, 64]⟩
abbrev S1x12x197x64 : Shape := ⟨4, ![1, 12, 197, 64]⟩
abbrev S12x197x64 : Shape := ⟨3, ![12, 197, 64]⟩
abbrev S12x197x197 : Shape := ⟨3, ![12, 197, 197]⟩
abbrev S12x197 : Shape := ⟨2, ![12, 197]⟩
abbrev S12x197x1 : Shape := ⟨3, ![12, 197, 1]⟩
abbrev S1x768 : Shape := ⟨2, ![1, 768]⟩

abbrev nBuf : Space → Nat
  | .hbm => 25
  | .vmem => 19
  | .smem => 0
  | _ => 0

abbrev bufTy : (tb : Table) → Fin (tcTables nBuf tb) → BufTy
  | .hbm, ⟨0, _⟩ => ⟨S64x197x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S768x2304, .f32⟩
  | .hbm, ⟨5, _⟩ => ⟨S768x2304, .bf16⟩
  | .hbm, ⟨6, _⟩ => ⟨S768x768, .f32⟩
  | .hbm, ⟨7, _⟩ => ⟨S768x768, .bf16⟩
  | .hbm, ⟨8, _⟩ => ⟨S64x197x2304, .f32⟩
  | .hbm, ⟨9, _⟩ => ⟨S64x197x768, .f32⟩
  | .hbm, ⟨10, _⟩ => ⟨S64x197x768, .f32⟩
  | .hbm, ⟨11, _⟩ => ⟨S64x197x768, .f32⟩
  | .hbm, ⟨12, _⟩ => ⟨S64x197x12x64, .f32⟩
  | .hbm, ⟨13, _⟩ => ⟨S64x12x197x64, .f32⟩
  | .hbm, ⟨14, _⟩ => ⟨S64x12x197x64, .bf16⟩
  | .hbm, ⟨15, _⟩ => ⟨S64x197x12x64, .f32⟩
  | .hbm, ⟨16, _⟩ => ⟨S64x12x197x64, .f32⟩
  | .hbm, ⟨17, _⟩ => ⟨S64x12x197x64, .bf16⟩
  | .hbm, ⟨18, _⟩ => ⟨S64x197x12x64, .f32⟩
  | .hbm, ⟨19, _⟩ => ⟨S64x12x197x64, .f32⟩
  | .hbm, ⟨20, _⟩ => ⟨S64x12x197x64, .bf16⟩
  | .hbm, ⟨21, _⟩ => ⟨S64x12x197x64, .bf16⟩
  | .hbm, ⟨22, _⟩ => ⟨S64x197x12x64, .bf16⟩
  | .hbm, ⟨23, _⟩ => ⟨S64x197x768, .bf16⟩
  | .hbm, ⟨24, _⟩ => ⟨S64x197x768, .f32⟩
  | .local _ .vmem, ⟨0, _⟩ => ⟨S1x197x768, .f32⟩
  | .local _ .vmem, ⟨1, _⟩ => ⟨S1x197x768, .f32⟩
  | .local _ .vmem, ⟨2, _⟩ => ⟨S768x2304, .bf16⟩
  | .local _ .vmem, ⟨3, _⟩ => ⟨S1x197x2304, .f32⟩
  | .local _ .vmem, ⟨4, _⟩ => ⟨S1x197x2304, .f32⟩
  | .local _ .vmem, ⟨5, _⟩ => ⟨S1x12x197x64, .bf16⟩
  | .local _ .vmem, ⟨6, _⟩ => ⟨S1x12x197x64, .bf16⟩
  | .local _ .vmem, ⟨7, _⟩ => ⟨S1x12x197x64, .bf16⟩
  | .local _ .vmem, ⟨8, _⟩ => ⟨S1x12x197x64, .bf16⟩
  | .local _ .vmem, ⟨9, _⟩ => ⟨S1x12x197x64, .bf16⟩
  | .local _ .vmem, ⟨10, _⟩ => ⟨S1x12x197x64, .bf16⟩
  | .local _ .vmem, ⟨11, _⟩ => ⟨S1x12x197x64, .bf16⟩
  | .local _ .vmem, ⟨12, _⟩ => ⟨S1x12x197x64, .bf16⟩
  | .local _ .vmem, ⟨13, _⟩ => ⟨S1x197x768, .bf16⟩
  | .local _ .vmem, ⟨14, _⟩ => ⟨S1x197x768, .bf16⟩
  | .local _ .vmem, ⟨15, _⟩ => ⟨S768x768, .bf16⟩
  | .local _ .vmem, ⟨16, _⟩ => ⟨S768, .f32⟩
  | .local _ .vmem, ⟨17, _⟩ => ⟨S1x197x768, .f32⟩
  | .local _ .vmem, ⟨18, _⟩ => ⟨S1x197x768, .f32⟩
  | _, _ => ⟨S64x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x197x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x197x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x12x197x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x12x197x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12x197x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x12x197x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x197x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x197x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S2304x768_S768x2304_1_0 : S2304x768.Transposes [1, 0] S768x2304
  bitsLt_bf16_f32 : FTy.bits .bf16 < FTy.bits .f32
  transposes_S768x768_S768x768_1_0 : S768x768.Transposes [1, 0] S768x768
  inb_S1x197x768_S1x197x768_0_0_0 : ∀ a, (![0, 0, 0] : Fin 3 → Nat) a + S1x197x768.size a ≤ S1x197x768.size a
  h_S1x197x768 : 0 < S1x197x768.numel
  shapeCasts_S1x197x768_S197x768 : S1x197x768.ShapeCasts S197x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x197x2304_S1x197x2304_0_0_0 : ∀ a, (![0, 0, 0] : Fin 3 → Nat) a + S1x197x2304.size a ≤ S1x197x2304.size a
  h_S1x197x2304 : 0 < S1x197x2304.numel
  shapeCasts_S1x197x2304_S197x2304 : S1x197x2304.ShapeCasts S197x2304
  shapeCasts_S197x2304_S1x197x2304 : S197x2304.ShapeCasts S1x197x2304
  slices_S64x197x2304_S64x197x768_0_0_0 : S64x197x2304.Slices ![0, 0, 0] S64x197x768
  slices_S64x197x2304_S64x197x768_0_0_768 : S64x197x2304.Slices ![0, 0, 768] S64x197x768
  slices_S64x197x2304_S64x197x768_0_0_1536 : S64x197x2304.Slices ![0, 0, 1536] S64x197x768
  shapeCasts_S64x197x768_S64x197x12x64 : S64x197x768.ShapeCasts S64x197x12x64
  transposes_S64x197x12x64_S64x12x197x64_0_2_1_3 : S64x197x12x64.Transposes [0, 2, 1, 3] S64x12x197x64
  inb_S1x12x197x64_S1x12x197x64_0_0_0_0 : ∀ a, (![0, 0, 0, 0] : Fin 4 → Nat) a + S1x12x197x64.size a ≤ S1x12x197x64.size a
  h_S1x12x197x64 : 0 < S1x12x197x64.numel
  shapeCasts_S1x12x197x64_S12x197x64 : S1x12x197x64.ShapeCasts S12x197x64
  reduces_S12x197x197_S12x197 : S12x197x197.Reduces [2] S12x197
  shapeCasts_S12x197_S12x197x1 : S12x197.ShapeCasts S12x197x1
  broadcasts_S12x197x1_S12x197x197 : S12x197x1.Broadcasts S12x197x197
  shapeCasts_S12x197x64_S1x12x197x64 : S12x197x64.ShapeCasts S1x12x197x64
  packedbf16_S1x12x197x64_S1x12x197x64_0_0_0_0 : (Rect.unit (s := S1x12x197x64) ![0, 0, 0, 0] S1x12x197x64.size inb_S1x12x197x64_S1x12x197x64_0_0_0_0).PackedRows (EltTy.packing .bf16)
  transposes_S64x12x197x64_S64x197x12x64_0_2_1_3 : S64x12x197x64.Transposes [0, 2, 1, 3] S64x197x12x64
  shapeCasts_S64x197x12x64_S64x197x768 : S64x197x12x64.ShapeCasts S64x197x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S197x768 : S1x768.Broadcasts S197x768
  shapeCasts_S197x768_S1x197x768 : S197x768.ShapeCasts S1x197x768
  dot_S197x768_S768x2304_S197x2304_1_0_0_1_n_n_wf : DotDims.WF S197x768 S768x2304 S197x2304 [1] [0] [0] [1] [] []
  dot_S12x197x64_S12x197x64_S12x197x197_2_2_1_1_0_0_wf : DotDims.WF S12x197x64 S12x197x64 S12x197x197 [2] [2] [1] [1] [0] [0]
  dot_S12x197x197_S12x197x64_S12x197x64_2_1_1_2_0_0_wf : DotDims.WF S12x197x197 S12x197x64 S12x197x64 [2] [1] [1] [2] [0] [0]
  dot_S197x768_S768x768_S197x768_1_0_0_1_n_n_wf : DotDims.WF S197x768 S768x768 S197x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x197x768.size a ≤ S64x197x768.size a
  hwx0_0 : ∀ i : grid0.Coords, EltTy.bits .f32 = 32 ∨ (Rect.block (s := S64x197x768) S1x197x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x197x2304.size a ≤ S64x197x2304.size a
  hwx0_2 : ∀ i : grid0.Coords, EltTy.bits .f32 = 32 ∨ (Rect.block (s := S64x197x2304) S1x197x2304.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x12x197x64.size a ≤ S64x12x197x64.size a
  hwx1_0 : ∀ i : grid1.Coords, EltTy.bits .bf16 = 32 ∨ (Rect.block (s := S64x12x197x64) S1x12x197x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x12x197x64.size a ≤ S64x12x197x64.size a
  hwx1_1 : ∀ i : grid1.Coords, EltTy.bits .bf16 = 32 ∨ (Rect.block (s := S64x12x197x64) S1x12x197x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x12x197x64.size a ≤ S64x12x197x64.size a
  hwx1_2 : ∀ i : grid1.Coords, EltTy.bits .bf16 = 32 ∨ (Rect.block (s := S64x12x197x64) S1x12x197x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x12x197x64.size a ≤ S64x12x197x64.size a
  hwx1_3 : ∀ i : grid1.Coords, EltTy.bits .bf16 = 32 ∨ (Rect.block (s := S64x12x197x64) S1x12x197x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x197x768.size a ≤ S64x197x768.size a
  hwx2_0 : ∀ i : grid2.Coords, EltTy.bits .bf16 = 32 ∨ (Rect.block (s := S64x197x768) S1x197x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768.size a ≤ S768.size a
  hwx2_2 : ∀ i : grid2.Coords, EltTy.bits .f32 = 32 ∨ (Rect.block (s := S768) S768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x197x768.size a ≤ S64x197x768.size a
  hwx2_3 : ∀ i : grid2.Coords, EltTy.bits .f32 = 32 ∨ (Rect.block (s := S64x197x768) S1x197x768.size (cc2_transform_3 i) (hinb2_3 i)).WholeWords (EltTy.packing .f32)

variable [Facts₀]

def dot_S197x768_S768x2304_S197x2304_1_0_0_1_n_n : DotDims S197x768 S768x2304 S197x2304 where
  lhsContracting := [1]
  rhsContracting := [0]
  lhsNonContracting := [0]
  rhsNonContracting := [1]
  lhsBatch := []
  rhsBatch := []
  wf := dot_S197x768_S768x2304_S197x2304_1_0_0_1_n_n_wf
def dot_S12x197x64_S12x197x64_S12x197x197_2_2_1_1_0_0 : DotDims S12x197x64 S12x197x64 S12x197x197 where
  lhsContracting := [2]
  rhsContracting := [2]
  lhsNonContracting := [1]
  rhsNonContracting := [1]
  lhsBatch := [0]
  rhsBatch := [0]
  wf := dot_S12x197x64_S12x197x64_S12x197x197_2_2_1_1_0_0_wf
def dot_S12x197x197_S12x197x64_S12x197x64_2_1_1_2_0_0 : DotDims S12x197x197 S12x197x64 S12x197x64 where
  lhsContracting := [2]
  rhsContracting := [1]
  lhsNonContracting := [1]
  rhsNonContracting := [2]
  lhsBatch := [0]
  rhsBatch := [0]
  wf := dot_S12x197x197_S12x197x64_S12x197x64_2_1_1_2_0_0_wf
def dot_S197x768_S768x768_S197x768_1_0_0_1_n_n : DotDims S197x768 S768x768 S197x768 where
  lhsContracting := [1]
  rhsContracting := [0]
  lhsNonContracting := [0]
  rhsNonContracting := [1]
  lhsBatch := []
  rhsBatch := []
  wf := dot_S197x768_S768x768_S197x768_1_0_0_1_n_n_wf

abbrev win0_0 : Pipeline.Window sig grid0 :=
  Pipeline.Window.ofSpec (Memref.whole main_arg0) S1x197x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x197x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S1x12x197x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x12x197x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x12x197x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x12x197x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S1x197x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x197x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S64x197x768 : Shape := ⟨3, ![64, 197, 768]⟩
abbrev S2304x768 : Shape := ⟨2, ![2304, 768]⟩
abbrev S768x768 : Shape := ⟨2, ![768, 768]⟩
abbrev S768 : Shape := ⟨1, ![768]⟩
abbrev S64x197x2304 : Shape := ⟨3, ![64, 197, 2304]⟩
abbrev S64x197x12x64 : Shape := ⟨4, ![64, 197, 12, 64]⟩
abbrev S64x12x197x64 : Shape := ⟨4, ![64, 12, 197, 64]⟩
abbrev S64x12x197x197 : Shape := ⟨4, ![64, 12, 197, 197]⟩
abbrev S_ : Shape := ⟨0, ![]⟩
abbrev S64x12x197 : Shape := ⟨3, ![64, 12, 197]⟩
abbrev S64x12x197x1 : Shape := ⟨4, ![64, 12, 197, 1]⟩
abbrev S1x1x768 : Shape := ⟨3, ![1, 1, 768]⟩

abbrev nBuf : Space → Nat
  | .hbm => 39
  | .vmem => 0
  | .smem => 0
  | _ => 0

abbrev bufTy : (tb : Table) → Fin (tcTables nBuf tb) → BufTy
  | .hbm, ⟨0, _⟩ => ⟨S64x197x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S64x197x2304, .f32⟩
  | .hbm, ⟨5, _⟩ => ⟨S64x197x768, .f32⟩
  | .hbm, ⟨6, _⟩ => ⟨S64x197x768, .f32⟩
  | .hbm, ⟨7, _⟩ => ⟨S64x197x768, .f32⟩
  | .hbm, ⟨8, _⟩ => ⟨S64x197x12x64, .f32⟩
  | .hbm, ⟨9, _⟩ => ⟨S64x12x197x64, .f32⟩
  | .hbm, ⟨10, _⟩ => ⟨S64x197x12x64, .f32⟩
  | .hbm, ⟨11, _⟩ => ⟨S64x12x197x64, .f32⟩
  | .hbm, ⟨12, _⟩ => ⟨S64x197x12x64, .f32⟩
  | .hbm, ⟨13, _⟩ => ⟨S64x12x197x64, .f32⟩
  | .hbm, ⟨14, _⟩ => ⟨S64x12x197x197, .f32⟩
  | .hbm, ⟨15, _⟩ => ⟨S_, .f32⟩
  | .hbm, ⟨16, _⟩ => ⟨S64x12x197x197, .f32⟩
  | .hbm, ⟨17, _⟩ => ⟨S64x12x197x197, .f32⟩
  | .hbm, ⟨18, _⟩ => ⟨S_, .f32⟩
  | .hbm, ⟨19, _⟩ => ⟨S64x12x197, .f32⟩
  | .hbm, ⟨20, _⟩ => ⟨S_, .f32⟩
  | .hbm, ⟨21, _⟩ => ⟨S64x12x197, .f32⟩
  | .hbm, ⟨22, _⟩ => ⟨S64x12x197, .f32⟩
  | .hbm, ⟨23, _⟩ => ⟨S64x12x197x1, .f32⟩
  | .hbm, ⟨24, _⟩ => ⟨S64x12x197x197, .f32⟩
  | .hbm, ⟨25, _⟩ => ⟨S64x12x197x197, .f32⟩
  | .hbm, ⟨26, _⟩ => ⟨S64x12x197x197, .f32⟩
  | .hbm, ⟨27, _⟩ => ⟨S_, .f32⟩
  | .hbm, ⟨28, _⟩ => ⟨S64x12x197, .f32⟩
  | .hbm, ⟨29, _⟩ => ⟨S64x12x197x1, .f32⟩
  | .hbm, ⟨30, _⟩ => ⟨S64x12x197x197, .f32⟩
  | .hbm, ⟨31, _⟩ => ⟨S64x12x197x197, .f32⟩
  | .hbm, ⟨32, _⟩ => ⟨S64x12x197x64, .f32⟩
  | .hbm, ⟨33, _⟩ => ⟨S64x197x12x64, .f32⟩
  | .hbm, ⟨34, _⟩ => ⟨S64x197x768, .f32⟩
  | .hbm, ⟨35, _⟩ => ⟨S64x197x768, .f32⟩
  | .hbm, ⟨36, _⟩ => ⟨S1x1x768, .f32⟩
  | .hbm, ⟨37, _⟩ => ⟨S64x197x768, .f32⟩
  | .hbm, ⟨38, _⟩ => ⟨S64x197x768, .f32⟩
  | _, _ => ⟨S64x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S64x197x2304_S64x197x768_0_0_0 : S64x197x2304.Slices ![0, 0, 0] S64x197x768
  slices_S64x197x2304_S64x197x768_0_0_768 : S64x197x2304.Slices ![0, 0, 768] S64x197x768
  slices_S64x197x2304_S64x197x768_0_0_1536 : S64x197x2304.Slices ![0, 0, 1536] S64x197x768
  shapeCasts_S64x197x768_S64x197x12x64 : S64x197x768.ShapeCasts S64x197x12x64
  transposes_S64x197x12x64_S64x12x197x64_0_2_1_3 : S64x197x12x64.Transposes [0, 2, 1, 3] S64x12x197x64
  bcast_S_S64x12x197x197 : S_.BroadcastsInDim S64x12x197x197 (![] : Fin 0 → Fin S64x12x197x197.rank)
  reducesTo_S64x12x197x197_S64x12x197_d3 : S64x12x197x197.ReducesTo [3] S64x12x197
  h_S_ : 0 < S_.numel
  bcast_S_S64x12x197 : S_.BroadcastsInDim S64x12x197 (![] : Fin 0 → Fin S64x12x197.rank)
  bcast_S64x12x197_S64x12x197x1_0_1_2 : S64x12x197.BroadcastsInDim S64x12x197x1 (![0, 1, 2] : Fin 3 → Fin S64x12x197x1.rank)
  bcast_S64x12x197x1_S64x12x197x197_0_1_2_3 : S64x12x197x1.BroadcastsInDim S64x12x197x197 (![0, 1, 2, 3] : Fin 4 → Fin S64x12x197x197.rank)
  transposes_S64x12x197x64_S64x197x12x64_0_2_1_3 : S64x12x197x64.Transposes [0, 2, 1, 3] S64x197x12x64
  shapeCasts_S64x197x12x64_S64x197x768 : S64x197x12x64.ShapeCasts S64x197x768
  bcast_S768_S1x1x768_2 : S768.BroadcastsInDim S1x1x768 (![2] : Fin 1 → Fin S1x1x768.rank)
  bcast_S1x1x768_S64x197x768_0_1_2 : S1x1x768.BroadcastsInDim S64x197x768 (![0, 1, 2] : Fin 3 → Fin S64x197x768.rank)
  dot_S64x197x768_S2304x768_S64x197x2304_2_1_01_0_n_n_wf : DotDims.WF S64x197x768 S2304x768 S64x197x2304 [2] [1] [0, 1] [0] [] []
  dot_S64x12x197x64_S64x12x197x64_S64x12x197x197_3_3_2_2_01_01_wf : DotDims.WF S64x12x197x64 S64x12x197x64 S64x12x197x197 [3] [3] [2] [2] [0, 1] [0, 1]
  dot_S64x12x197x197_S64x12x197x64_S64x12x197x64_3_2_2_3_01_01_wf : DotDims.WF S64x12x197x197 S64x12x197x64 S64x12x197x64 [3] [2] [2] [3] [0, 1] [0, 1]
  dot_S64x197x768_S768x768_S64x197x768_2_1_01_0_n_n_wf : DotDims.WF S64x197x768 S768x768 S64x197x768 [2] [1] [0, 1] [0] [] []

variable [Facts₀]

def dot_S64x197x768_S2304x768_S64x197x2304_2_1_01_0_n_n : DotDims S64x197x768 S2304x768 S64x197x2304 where
  lhsContracting := [2]
  rhsContracting := [1]
  lhsNonContracting := [0, 1]
  rhsNonContracting := [0]
  lhsBatch := []
  rhsBatch := []
  wf := dot_S64x197x768_S2304x768_S64x197x2304_2_1_01_0_n_n_wf
def dot_S64x12x197x64_S64x12x197x64_S64x12x197x197_3_3_2_2_01_01 : DotDims S64x12x197x64 S64x12x197x64 S64x12x197x197 where
  lhsContracting := [3]
  rhsContracting := [3]
  lhsNonContracting := [2]
  rhsNonContracting := [2]
  lhsBatch := [0, 1]
  rhsBatch := [0, 1]
  wf := dot_S64x12x197x64_S64x12x197x64_S64x12x197x197_3_3_2_2_01_01_wf
def dot_S64x12x197x197_S64x12x197x64_S64x12x197x64_3_2_2_3_01_01 : DotDims S64x12x197x197 S64x12x197x64 S64x12x197x64 where
  lhsContracting := [3]
  rhsContracting := [2]
  lhsNonContracting := [2]
  rhsNonContracting := [3]
  lhsBatch := [0, 1]
  rhsBatch := [0, 1]
  wf := dot_S64x12x197x197_S64x12x197x64_S64x12x197x64_3_2_2_3_01_01_wf
def dot_S64x197x768_S768x768_S64x197x768_2_1_01_0_n_n : DotDims S64x197x768 S768x768 S64x197x768 where
  lhsContracting := [2]
  rhsContracting := [1]
  lhsNonContracting := [0, 1]
  rhsNonContracting := [0]
  lhsBatch := []
  rhsBatch := []
  wf := dot_S64x197x768_S768x768_S64x197x768_2_1_01_0_n_n_wf

class Facts : Prop extends Facts₀ where

variable [Facts]
-- ==== Proof.KRun.lean ====
/-
  The kernel program's run with its result named. The program is three kernel regions among stretches of layout
  operations; its buffers' contents at each boundary are a fold through the program from the launch memory
  (`Gen.W0` … `Gen.W6`). Every weakly fair execution terminates without a fault, and in the final state the result
  array holds what that fold gives it (`Gen.W6 … main_v20`) while the four argument arrays are as launched.
-/
import proofs.«121623_j47811575939170_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_value : θ_run defs (onTc (τ := τ) (main (F := F))) ⟨m, fun _ => 0, ρ⟩ (fun r => ∀ c : Dev nD,
      r.2.mem ((c.tc : Thread nD τ).loc main_v20) = W6 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v20 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.Val

end
-- ==== Proof.Spec.lean ====
/-
  The mathematics both programs compute, written once over the extended reals and over literal index types.

  Multi-head self-attention on x : [64,197,768] with weights w_qkv : [2304,768], w_out : [768,768], b_out : [768]:
    * the projection  P(b,n,e) = Σ_d x(b,n,d) · wT(d,e)            (`projArr`, wT the transposed weight);
    * per batch b and head h, with q,k,v : [197,64] the head's slices,
        s(i,j) = (Σ_d q(i,d) · k(j,d)) · 1/8                        (`score`),
        m(i)   = max(-∞, max_j s(i,j))                              (`rowMax`, the maximum folded from -∞),
        e(i,j) = exp(s(i,j) - m(i))                                  (`rowExp`),
        p(i,j) = e(i,j) / Σ_j' e(i,j')                               (`rowSoftmax`),
        o(i,d) = Σ_j p(i,j) · v(j,d)                                 (`headOut`);
    * the output projection  out(b,n,c) = Σ_e a(b,n,e) · wT(e,c) + bias(c)   (`projBiasArr`).
  The two float literals (the -∞ word and the 1/8 word) stay as their words: the same word stands on both sides
  and is never evaluated.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The word of -∞, the value every running maximum starts from. -/
abbrev negInf : EReal := Ideal.ofBits .f32 0xFF800000#32
/-- The word of 1/8 = 64^(-1/2), the scale of the scores. -/
abbrev scale : EReal := Ideal.ofBits .f32 0x3E000000#32

/-! ## One row of scores -/

/-- The maximum of a row, folded from -∞ (and once more against -∞, as both programs spell it). -/
def rowMax (r : Fin 197 → EReal) : EReal := max negInf ((Finset.univ : Finset (Fin 197)).fold max negInf r)
/-- The shifted exponentials of a row. -/
def rowExp (r : Fin 197 → EReal) (j : Fin 197) : EReal := Ideal.exp (r j - rowMax r)
/-- The softmax of a row. -/
def rowSoftmax (r : Fin 197 → EReal) (j : Fin 197) : EReal := Ideal.div (rowExp r j) (∑ j' : Fin 197, rowExp r j')

/-! ## One head -/

/-- The scaled score of query row `i` against key row `j`. -/
def score (q k : Fin 197 → Fin 64 → EReal) (i j : Fin 197) : EReal := (∑ d : Fin 64, q i d * k j d) * scale
/-- One head's output: the softmax-weighted sum of the value rows. -/
def headOut (q k v : Fin 197 → Fin 64 → EReal) (i : Fin 197) (d : Fin 64) : EReal :=
  ∑ j : Fin 197, rowSoftmax (score q k i) j * v j d

/-! ## Whole arrays -/

/-- A coordinate of an index as a number of the literal extent. -/
abbrev co {r : Nat} {sz : Fin r → Nat} (y : (⟨r, sz⟩ : Shape).Idx) (a : Fin r) (n : Nat) (h : sz a = n) : Fin n :=
  ⟨(y a).val, h ▸ (y a).isLt⟩

/-- The projection of a [64,197,768] array by a [768,N] matrix: P(b,n,e) = Σ_d x(b,n,d) · wT(d,e). -/
def projArr (N : Nat) (x : (⟨3, ![64, 197, 768]⟩ : Shape).Idx → EReal) (wT : (⟨2, ![768, N]⟩ : Shape).Idx → EReal) :
    (⟨3, ![64, 197, N]⟩ : Shape).Idx → EReal :=
  fun y => ∑ d : Fin 768, x (ix3 (co y 0 64 rfl) (co y 1 197 rfl) d) * wT (ix2 d (co y 2 N rfl))

theorem projArr_apply (N : Nat) (x : (⟨3, ![64, 197, 768]⟩ : Shape).Idx → EReal) (wT : (⟨2, ![768, N]⟩ : Shape).Idx → EReal)
    (b : Fin 64) (n : Fin 197) (e : Fin N) :
    projArr N x wT (ix3 b n e) = ∑ d : Fin 768, x (ix3 b n d) * wT (ix2 d e) := rfl

/-- The same with a bias row added: out(b,n,c) = Σ_e a(b,n,e) · wT(e,c) + bias(c). -/
def projBiasArr (a : (⟨3, ![64, 197, 768]⟩ : Shape).Idx → EReal) (wT : (⟨2, ![768, 768]⟩ : Shape).Idx → EReal)
    (bias : (⟨1, ![768]⟩ : Shape).Idx → EReal) : (⟨3, ![64, 197, 768]⟩ : Shape).Idx → EReal :=
  fun y => projArr 768 a wT y + bias (ix1 (co y 2 768 rfl))

theorem projBiasArr_apply (a : (⟨3, ![64, 197, 768]⟩ : Shape).Idx → EReal) (wT : (⟨2, ![768, 768]⟩ : Shape).Idx → EReal)
    (bias : (⟨1, ![768]⟩ : Shape).Idx → EReal) (b : Fin 64) (n : Fin 197) (c : Fin 768) :
    projBiasArr a wT bias (ix3 b n c) = (∑ e : Fin 768, a (ix3 b n e) * wT (ix2 e c)) + bias (ix1 c) := rfl

/-- Attention head by head on [64,12,197,64] arrays: entry (b,h,i,d) is head (b,h)'s output at (i,d). -/
def attnArr (q k v : (⟨4, ![64, 12, 197, 64]⟩ : Shape).Idx → EReal) : (⟨4, ![64, 12, 197, 64]⟩ : Shape).Idx → EReal :=
  fun y => headOut (fun i d => q (ix4 (co y 0 64 rfl) (co y 1 12 rfl) i d)) (fun j d => k (ix4 (co y 0 64 rfl) (co y 1 12 rfl) j d))
    (fun j d => v (ix4 (co y 0 64 rfl) (co y 1 12 rfl) j d)) (co y 2 197 rfl) (co y 3 64 rfl)

theorem attnArr_apply (q k v : (⟨4, ![64, 12, 197, 64]⟩ : Shape).Idx → EReal) (b : Fin 64) (h : Fin 12) (i : Fin 197) (d : Fin 64) :
    attnArr q k v (ix4 b h i d)
      = headOut (fun i d => q (ix4 b h i d)) (fun j d => k (ix4 b h j d)) (fun j d => v (ix4 b h j d)) i d := rfl

/-! ## The layout between the three stages, and the whole computation -/

/-- A matrix transposed: (i,j) reads (j,i). -/
def transposeArr (A B : Nat) (w : (⟨2, ![A, B]⟩ : Shape).Idx → EReal) : (⟨2, ![B, A]⟩ : Shape).Idx → EReal :=
  fun y => w (ix2 (co y 1 A rfl) (co y 0 B rfl))

theorem transposeArr_apply (A B : Nat) (w : (⟨2, ![A, B]⟩ : Shape).Idx → EReal) (i : Fin B) (j : Fin A) :
    transposeArr A B w (ix2 i j) = w (ix2 j i) := rfl

/-- The heads of one third of the projected array: columns `off .. off+768` of [64,197,2304], split into
    12 heads of 64 and the head axis moved in front of the sequence axis: [64,12,197,64]. Written with the
    layout operations themselves (slice, reshape, transpose), which both programs apply. -/
def headsArr (off : Nat) (Q : (⟨3, ![64, 197, 2304]⟩ : Shape).Idx → EReal)
    (hs : (⟨3, ![64, 197, 2304]⟩ : Shape).Slices ![0, 0, off] ⟨3, ![64, 197, 768]⟩) :
    (⟨4, ![64, 12, 197, 64]⟩ : Shape).Idx → EReal :=
  transpose ⟨4, ![64, 12, 197, 64]⟩ [0, 2, 1, 3]
    (shapeCast ⟨4, ![64, 197, 12, 64]⟩ (extractStridedSlice ⟨3, ![64, 197, 768]⟩ ![0, 0, off] Q hs) (by decide)) (by decide)

/-- The heads merged back: [64,12,197,64] to [64,197,12,64] to [64,197,768]. -/
def mergeArr (O : (⟨4, ![64, 12, 197, 64]⟩ : Shape).Idx → EReal) : (⟨3, ![64, 197, 768]⟩ : Shape).Idx → EReal :=
  shapeCast ⟨3, ![64, 197, 768]⟩ (transpose ⟨4, ![64, 197, 12, 64]⟩ [0, 2, 1, 3] O (by decide)) (by decide)

/-- The projected array: x against the transposed qkv weight. -/
def qkvArr (x : (⟨3, ![64, 197, 768]⟩ : Shape).Idx → EReal) (wq : (⟨2, ![2304, 768]⟩ : Shape).Idx → EReal) :
    (⟨3, ![64, 197, 2304]⟩ : Shape).Idx → EReal :=
  projArr 2304 x (transposeArr 2304 768 wq)

/-- THE WHOLE COMPUTATION: project, split into heads, attend head by head, merge, project out and add the bias. -/
def mha (x : (⟨3, ![64, 197, 768]⟩ : Shape).Idx → EReal) (wq : (⟨2, ![2304, 768]⟩ : Shape).Idx → EReal)
    (wo : (⟨2, ![768, 768]⟩ : Shape).Idx → EReal) (bias : (⟨1, ![768]⟩ : Shape).Idx → EReal) :
    (⟨3, ![64, 197, 768]⟩ : Shape).Idx → EReal :=
  projBiasArr
    (mergeArr (attnArr (headsArr 0 (qkvArr x wq) (by decide)) (headsArr 768 (qkvArr x wq) (by decide))
      (headsArr 1536 (qkvArr x wq) (by decide))))
    (transposeArr 768 768 wo) bias

end Cert.Attn

end
-- ==== Proof.KHost.lean ====
/-
  The kernel program's result as the one function of its arguments.

  Between the three kernel regions the program only re-lays arrays out: it transposes the two weight matrices and
  rounds them to bf16 (the identity on the extended reals) before the first region; after it, cuts the projected
  array into its three thirds, splits each into heads and moves the head axis forward; after the second region moves
  the head axis back and merges the heads. With each region's array the spec's function of the region's inputs
  (`R0`, `R1`, `R2` below), the contents at the last boundary are `Cert.Attn.mha` of the four arguments.
-/
import proofs.«121623_j47811575939170_1_alg».proof.Proof.Gen.KernelIdeal.Frame
import proofs.«121623_j47811575939170_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Val

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg)

/-! ## Before the first region -/

/-- The first region finds the input array as launched. -/
theorem entry0_x (c : Dev nD) : V1 m ρ c main_arg0 = m ((c : Thread nD τ).loc main_arg0) := by
  show StableHlo.after hostOps0 (W0 m ρ c) (Proc.devRef .tc main_arg0) = _
  after_results

/-- A transposed (and rounded) matrix is the matrix read at the swapped index. -/
theorem transposed_eq (A B : Nat) (w : (⟨2, ![A, B]⟩ : Shape).Idx → EReal)
    (h : (⟨2, ![A, B]⟩ : Shape).Transposes [1, 0] ⟨2, ![B, A]⟩) (hb : FTy.bf16.bits < FTy.f32.bits) :
    (truncf (F := Ideal) .bf16 (transpose (⟨2, ![B, A]⟩ : Shape) [1, 0] (w : FVec Ideal ⟨2, ![A, B]⟩ .f32) h) hb : (⟨2, ![B, A]⟩ : Shape).Idx → EReal)
      = Cert.Attn.transposeArr A B w := by
  funext y
  obtain ⟨i, j, rfl⟩ : ∃ (i : Fin B) (j : Fin A), y = ix2 i j := ⟨y 0, y 1, eq_ix2 y⟩
  rw [Cert.Attn.transposeArr_apply]
  show transpose (⟨2, ![B, A]⟩ : Shape) [1, 0] w h (ix2 i j) = _
  exact transpose_apply [1, 0] w h (ix2 i j) (ix2 j i) (fun b => match b with | ⟨0, _⟩ => rfl | ⟨1, _⟩ => rfl)

/-- The first region finds the qkv weight transposed. -/
theorem entry0_w (c : Dev nD) :
    (V1 m ρ c main_v1 : S768x2304.Idx → EReal) = Cert.Attn.transposeArr 2304 768 (m ((c : Thread nD τ).loc main_arg1)) := by
  show StableHlo.after hostOps0 (W0 m ρ c) (Proc.devRef .tc main_v1) = _
  after_results
  exact transposed_eq 2304 768 _ _ _

/-- … and the output weight, transposed, is ready from the start. -/
theorem entry0_wo (c : Dev nD) :
    (V1 m ρ c main_v3 : S768x768.Idx → EReal) = Cert.Attn.transposeArr 768 768 (m ((c : Thread nD τ).loc main_arg2)) := by
  show StableHlo.after hostOps0 (W0 m ρ c) (Proc.devRef .tc main_v3) = _
  after_results
  exact transposed_eq 768 768 _ _ _

theorem entry0_b (c : Dev nD) : V1 m ρ c main_arg3 = m ((c : Thread nD τ).loc main_arg3) := by
  show StableHlo.after hostOps0 (W0 m ρ c) (Proc.devRef .tc main_arg3) = _
  after_results

/-! ## Through the regions -/

section Regions

variable (R0 : ∀ (V : (c : Dev nD) → (b : Ref sig .tc) → Buf (Elt Ideal) ((c : Thread nD τ).loc b)) (c : Dev nD),
    (dat0 (F := Ideal) V c).arrAt 2 cfg0.N = Cert.Attn.projArr 2304 (V c main_arg0) (V c main_v1))
variable (R1 : ∀ (V : (c : Dev nD) → (b : Ref sig .tc) → Buf (Elt Ideal) ((c : Thread nD τ).loc b)) (c : Dev nD),
    (dat1 (F := Ideal) V c).arrAt 3 cfg1.N = Cert.Attn.attnArr (V c main_v10) (V c main_v13) (V c main_v16))
variable (R2 : ∀ (V : (c : Dev nD) → (b : Ref sig .tc) → Buf (Elt Ideal) ((c : Thread nD τ).loc b)) (c : Dev nD),
    (dat2 (F := Ideal) V c).arrAt 3 cfg2.N = Cert.Attn.projBiasArr (V c main_v19) (V c main_v3) (V c main_arg3))

include R0 in
/-- After the first region: the projected array. -/
theorem exit0 (c : Dev nD) :
    (W2 m ρ c (Proc.devRef .tc main_v4) : S64x197x2304.Idx → EReal)
      = Cert.Attn.qkvArr (m ((c : Thread nD τ).loc main_arg0)) (m ((c : Thread nD τ).loc main_arg1)) := by
  refine (W2_arr m ρ c 2).trans ((R0 (V1 m ρ) c).trans ?_)
  rw [entry0_x, entry0_w]
  rfl

/-- The second region finds the three thirds of the projected array split into heads. -/
theorem entry1_q (c : Dev nD) :
    (V3 m ρ c main_v10 : S64x12x197x64.Idx → EReal) = Cert.Attn.headsArr 0 (W2 m ρ c (Proc.devRef .tc main_v4)) (by decide) := by
  show StableHlo.after hostOps1 (W2 m ρ c) (Proc.devRef .tc main_v10) = _
  after_results
  rfl
theorem entry1_k (c : Dev nD) :
    (V3 m ρ c main_v13 : S64x12x197x64.Idx → EReal) = Cert.Attn.headsArr 768 (W2 m ρ c (Proc.devRef .tc main_v4)) (by decide) := by
  show StableHlo.after hostOps1 (W2 m ρ c) (Proc.devRef .tc main_v13) = _
  after_results
  rfl
theorem entry1_v (c : Dev nD) :
    (V3 m ρ c main_v16 : S64x12x197x64.Idx → EReal) = Cert.Attn.headsArr 1536 (W2 m ρ c (Proc.devRef .tc main_v4)) (by decide) := by
  show StableHlo.after hostOps1 (W2 m ρ c) (Proc.devRef .tc main_v16) = _
  after_results
  rfl

include R1 in
/-- After the second region: attention head by head on what it found. -/
theorem exit1 (c : Dev nD) :
    (W4 m ρ c (Proc.devRef .tc main_v17) : S64x12x197x64.Idx → EReal)
      = Cert.Attn.attnArr (V3 m ρ c main_v10) (V3 m ρ c main_v13) (V3 m ρ c main_v16) :=
  (W4_arr m ρ c 3).trans (R1 (V3 m ρ) c)

/-- The third region finds the heads merged back … -/
theorem entry2_a (c : Dev nD) :
    (V5 m ρ c main_v19 : S64x197x768.Idx → EReal) = Cert.Attn.mergeArr (W4 m ρ c (Proc.devRef .tc main_v17)) := by
  show StableHlo.after hostOps2 (W4 m ρ c) (Proc.devRef .tc main_v19) = _
  after_results
  rfl

/-- … the transposed output weight as it was made before the first region … -/
theorem entry2_w (c : Dev nD) : V5 m ρ c main_v3 = V1 m ρ c main_v3 :=
  calc W5 m ρ c (Proc.devRef .tc main_v3)
    _ = W4 m ρ c (Proc.devRef .tc main_v3) := by
          show StableHlo.after hostOps2 (W4 m ρ c) (Proc.devRef .tc main_v3) = _
          after_results
    _ = W3 m ρ c (Proc.devRef .tc main_v3) := W4_of_ne m ρ c main_v3 (by decide)
    _ = W2 m ρ c (Proc.devRef .tc main_v3) := by
          show StableHlo.after hostOps1 (W2 m ρ c) (Proc.devRef .tc main_v3) = _
          after_results
    _ = W1 m ρ c (Proc.devRef .tc main_v3) := W2_of_ne m ρ c main_v3 (by decide)

/-- … and the bias as launched. -/
theorem entry2_b (c : Dev nD) : V5 m ρ c main_arg3 = V1 m ρ c main_arg3 :=
  calc W5 m ρ c (Proc.devRef .tc main_arg3)
    _ = W4 m ρ c (Proc.devRef .tc main_arg3) := by
          show StableHlo.after hostOps2 (W4 m ρ c) (Proc.devRef .tc main_arg3) = _
          after_results
    _ = W3 m ρ c (Proc.devRef .tc main_arg3) := W4_of_ne m ρ c main_arg3 (by decide)
    _ = W2 m ρ c (Proc.devRef .tc main_arg3) := by
          show StableHlo.after hostOps1 (W2 m ρ c) (Proc.devRef .tc main_arg3) = _
          after_results
    _ = W1 m ρ c (Proc.devRef .tc main_arg3) := W2_of_ne m ρ c main_arg3 (by decide)

include R0 R1 R2 in
/-- THE RESULT: the array the last region leaves is the whole computation of the four arguments. -/
theorem kernel_value (c : Dev nD) :
    (W6 m ρ c (Proc.devRef .tc main_v20) : S64x197x768.Idx → EReal)
      = Cert.Attn.mha (m ((c : Thread nD τ).loc main_arg0)) (m ((c : Thread nD τ).loc main_arg1))
          (m ((c : Thread nD τ).loc main_arg2)) (m ((c : Thread nD τ).loc main_arg3)) := by
  refine (W6_arr m ρ c 3).trans ((R2 (V5 m ρ) c).trans ?_)
  rw [entry2_a, entry2_w, entry2_b, entry0_wo, entry0_b, exit1 m ρ R1, entry1_q, entry1_k, entry1_v, exit0 m ρ R0]
  rfl

end Regions

end Cert.KernelIdeal.Val

end
-- ==== Proof.PayStmt.lean ====
/-
  What each kernel body computes, entry by entry, as three propositions. A body's result block is one pure term of the
  blocks it loads (the program's payload); read at an entry of the block over the extended reals it is
    * for the first projection: the sum over d of x(0,n,d) · w(d,e);
    * for the attention body: head h's output at (i,d) of the three loaded blocks' head-h slices;
    * for the output projection: the sum over e of a(0,n,e) · w(e,c), plus bias(c).
  They are stated here, apart from their proofs, so that the passage from blocks to whole arrays can cite them.
-/
import proofs.«121623_j47811575939170_1_alg».proof.Proof.Gen.KernelIdeal.Skeleton
import proofs.«121623_j47811575939170_1_alg».proof.Proof.Spec
import Idealize.ShloMosaic.Lib.ValueIdx

noncomputable section

namespace Cert.KernelIdeal.Val

open Idealize.ShloMosaic Idealize.ShloMosaic.ValueIdx Cert.KernelIdeal Cert.KernelIdeal.Gen

/-- The first projection's block at (0,n,e): the row of x against the column of the weight. -/
def Pay0 : Prop := ∀ (x0 : Vec Ideal S1x197x768 .f32) (x1 : Vec Ideal S768x2304 .bf16) (n : Fin 197) (e : Fin 2304),
    k0_pay1 (F := Ideal) x0 x1 (ix3 (0 : Fin 1) n e) = ∑ d : Fin 768, x0 (ix3 (0 : Fin 1) n d) * x1 (ix2 d e)

/-- The attention body's block at (0,h,i,d): head h's output at (i,d). -/
def Pay1 : Prop := ∀ (x0 x1 x2 : Vec Ideal S1x12x197x64 .bf16) (h : Fin 12) (i : Fin 197) (d : Fin 64),
    k1_pay1 (F := Ideal) x0 x1 x2 (ix4 (0 : Fin 1) h i d)
      = Cert.Attn.headOut (fun i d => x0 (ix4 (0 : Fin 1) h i d)) (fun j d => x1 (ix4 (0 : Fin 1) h j d))
          (fun j d => x2 (ix4 (0 : Fin 1) h j d)) i d

/-- The output projection's block at (0,n,c): the row of the attention output against the weight's column, plus the bias. -/
def Pay2 : Prop := ∀ (x0 : Vec Ideal S1x197x768 .bf16) (x1 : Vec Ideal S768x768 .bf16) (x2 : Vec Ideal S768 .f32) (n : Fin 197) (c : Fin 768),
    k2_pay1 (F := Ideal) x0 x1 x2 (ix3 (0 : Fin 1) n c) = (∑ e : Fin 768, x0 (ix3 (0 : Fin 1) n e) * x1 (ix2 e c)) + x2 (ix1 c)

end Cert.KernelIdeal.Val

end
-- ==== Proof.Payload02.lean ====
/-
  The two projection bodies read at an entry.

  Each body is a matrix product into the zero accumulator between two reshapes that only add or drop a leading unit
  axis; over the extended reals the rounding of the left operand is the identity. So the first projection's block at
  (0,n,e) is the sum over d of x(0,n,d) · w(d,e), and the output projection's block at (0,n,c) is the sum over e of
  a(0,n,e) · w(e,c) plus the bias entry bias(c), the bias row being broadcast over the 197 rows.
-/
import proofs.«121623_j47811575939170_1_alg».proof.Proof.PayStmt
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-- The left operand's row coordinate at an entry of the product is the entry's row. -/
private theorem mm0_l0 (i : S197x2304.Idx) (q : dot_S197x768_S768x2304_S197x2304_1_0_0_1_n_n.contr.Idx) :
    (dot_S197x768_S768x2304_S197x2304_1_0_0_1_n_n.lhsIdx i q 0).val = (i 0).val := by
  unfold DotDims.lhsIdx
  rw [dif_neg (show ¬(0 : Fin S197x768.rank) ∈ dot_S197x768_S768x2304_S197x2304_1_0_0_1_n_n.lhsBatch by decide),
    dif_pos (show (0 : Fin S197x768.rank) ∈ dot_S197x768_S768x2304_S197x2304_1_0_0_1_n_n.lhsNonContracting by decide)]
  rfl
/-- The left operand's column coordinate is the contracted coordinate. -/
private theorem mm0_l1 (i : S197x2304.Idx) (q : dot_S197x768_S768x2304_S197x2304_1_0_0_1_n_n.contr.Idx) :
    (dot_S197x768_S768x2304_S197x2304_1_0_0_1_n_n.lhsIdx i q 1).val = (q ⟨0, by decide⟩).val :=
  dot_S197x768_S768x2304_S197x2304_1_0_0_1_n_n.lhsIdx_val_of_single rfl i q
/-- The right operand's row coordinate is the contracted coordinate. -/
private theorem mm0_r0 (i : S197x2304.Idx) (q : dot_S197x768_S768x2304_S197x2304_1_0_0_1_n_n.contr.Idx) :
    (dot_S197x768_S768x2304_S197x2304_1_0_0_1_n_n.rhsIdx i q 0).val = (q ⟨0, by decide⟩).val :=
  dot_S197x768_S768x2304_S197x2304_1_0_0_1_n_n.rhsIdx_val_of_single rfl i q
/-- The right operand's column coordinate at an entry of the product is the entry's column. -/
private theorem mm0_r1 (i : S197x2304.Idx) (q : dot_S197x768_S768x2304_S197x2304_1_0_0_1_n_n.contr.Idx) :
    (dot_S197x768_S768x2304_S197x2304_1_0_0_1_n_n.rhsIdx i q 1).val = (i 1).val := by
  unfold DotDims.rhsIdx
  rw [dif_neg (show ¬(1 : Fin S768x2304.rank) ∈ dot_S197x768_S768x2304_S197x2304_1_0_0_1_n_n.rhsBatch by decide),
    dif_pos (show (1 : Fin S768x2304.rank) ∈ dot_S197x768_S768x2304_S197x2304_1_0_0_1_n_n.rhsNonContracting by decide)]
  rfl

/-- The [197,768] by [768,2304] product into the zero accumulator at (n,e): the sum over the contracted axis of the products. -/
private theorem mm0 (v : FVec Ideal S197x768 .bf16) (w : FVec Ideal S768x2304 .bf16) (n : Fin 197) (e : Fin 2304) :
    FloatOps.matmul (F := Ideal) dot_S197x768_S768x2304_S197x2304_1_0_0_1_n_n none v w (constant S197x2304 .f32 0x00000000#32) (ix2 n e)
      = ∑ d : Fin 768, v (ix2 n d) * w (ix2 d e) := by
  refine (Ideal.matmul_constant_zero_apply dot_S197x768_S768x2304_S197x2304_1_0_0_1_n_n none v w (ix2 n e)).trans ?_
  rw [← Equiv.sum_comp (contrEquiv1 dot_S197x768_S768x2304_S197x2304_1_0_0_1_n_n 768 rfl rfl).symm]
  refine Finset.sum_congr rfl fun k _ => ?_
  have hk := contrEquiv1_symm_val dot_S197x768_S768x2304_S197x2304_1_0_0_1_n_n 768 rfl rfl k
  have el : dot_S197x768_S768x2304_S197x2304_1_0_0_1_n_n.lhsIdx (ix2 n e) ((contrEquiv1 dot_S197x768_S768x2304_S197x2304_1_0_0_1_n_n 768 rfl rfl).symm k) = ix2 n k :=
    funext fun a => Fin.ext (by
      match a with
      | ⟨0, _⟩ => exact mm0_l0 _ _
      | ⟨1, _⟩ => exact (mm0_l1 _ _).trans hk)
  have er : dot_S197x768_S768x2304_S197x2304_1_0_0_1_n_n.rhsIdx (ix2 n e) ((contrEquiv1 dot_S197x768_S768x2304_S197x2304_1_0_0_1_n_n 768 rfl rfl).symm k) = ix2 k e :=
    funext fun a => Fin.ext (by
      match a with
      | ⟨0, _⟩ => exact (mm0_r0 _ _).trans hk
      | ⟨1, _⟩ => exact mm0_r1 _ _)
  rw [el, er]

/-- The first projection's block at (0,n,e) is the row n of x against the column e of the weight. -/
theorem pay0 : Pay0 := by
  intro x0 x1 n e
  unfold k0_pay1
  refine (shapeCast_ab_1ab_apply _ _ (0 : Fin 1) n e).trans ?_
  refine (mm0 _ _ n e).trans ?_
  refine Finset.sum_congr rfl fun d _ => ?_
  congr 1
  · exact shapeCast_1ab_ab_apply x0 _ n d
  · rw [shapeCast_self]

/-- The left operand's row coordinate at an entry of the product is the entry's row. -/
private theorem mm2_l0 (i : S197x768.Idx) (q : dot_S197x768_S768x768_S197x768_1_0_0_1_n_n.contr.Idx) :
    (dot_S197x768_S768x768_S197x768_1_0_0_1_n_n.lhsIdx i q 0).val = (i 0).val := by
  unfold DotDims.lhsIdx
  rw [dif_neg (show ¬(0 : Fin S197x768.rank) ∈ dot_S197x768_S768x768_S197x768_1_0_0_1_n_n.lhsBatch by decide),
    dif_pos (show (0 : Fin S197x768.rank) ∈ dot_S197x768_S768x768_S197x768_1_0_0_1_n_n.lhsNonContracting by decide)]
  rfl
/-- The left operand's column coordinate is the contracted coordinate. -/
private theorem mm2_l1 (i : S197x768.Idx) (q : dot_S197x768_S768x768_S197x768_1_0_0_1_n_n.contr.Idx) :
    (dot_S197x768_S768x768_S197x768_1_0_0_1_n_n.lhsIdx i q 1).val = (q ⟨0, by decide⟩).val :=
  dot_S197x768_S768x768_S197x768_1_0_0_1_n_n.lhsIdx_val_of_single rfl i q
/-- The right operand's row coordinate is the contracted coordinate. -/
private theorem mm2_r0 (i : S197x768.Idx) (q : dot_S197x768_S768x768_S197x768_1_0_0_1_n_n.contr.Idx) :
    (dot_S197x768_S768x768_S197x768_1_0_0_1_n_n.rhsIdx i q 0).val = (q ⟨0, by decide⟩).val :=
  dot_S197x768_S768x768_S197x768_1_0_0_1_n_n.rhsIdx_val_of_single rfl i q
/-- The right operand's column coordinate at an entry of the product is the entry's column. -/
private theorem mm2_r1 (i : S197x768.Idx) (q : dot_S197x768_S768x768_S197x768_1_0_0_1_n_n.contr.Idx) :
    (dot_S197x768_S768x768_S197x768_1_0_0_1_n_n.rhsIdx i q 1).val = (i 1).val := by
  unfold DotDims.rhsIdx
  rw [dif_neg (show ¬(1 : Fin S768x768.rank) ∈ dot_S197x768_S768x768_S197x768_1_0_0_1_n_n.rhsBatch by decide),
    dif_pos (show (1 : Fin S768x768.rank) ∈ dot_S197x768_S768x768_S197x768_1_0_0_1_n_n.rhsNonContracting by decide)]
  rfl

/-- The [197,768] by [768,768] product into the zero accumulator at (n,c): the sum over the contracted axis of the products. -/
private theorem mm2 (v : FVec Ideal S197x768 .bf16) (w : FVec Ideal S768x768 .bf16) (n : Fin 197) (e : Fin 768) :
    FloatOps.matmul (F := Ideal) dot_S197x768_S768x768_S197x768_1_0_0_1_n_n none v w (constant S197x768 .f32 0x00000000#32) (ix2 n e)
      = ∑ d : Fin 768, v (ix2 n d) * w (ix2 d e) := by
  refine (Ideal.matmul_constant_zero_apply dot_S197x768_S768x768_S197x768_1_0_0_1_n_n none v w (ix2 n e)).trans ?_
  rw [← Equiv.sum_comp (contrEquiv1 dot_S197x768_S768x768_S197x768_1_0_0_1_n_n 768 rfl rfl).symm]
  refine Finset.sum_congr rfl fun k _ => ?_
  have hk := contrEquiv1_symm_val dot_S197x768_S768x768_S197x768_1_0_0_1_n_n 768 rfl rfl k
  have el : dot_S197x768_S768x768_S197x768_1_0_0_1_n_n.lhsIdx (ix2 n e) ((contrEquiv1 dot_S197x768_S768x768_S197x768_1_0_0_1_n_n 768 rfl rfl).symm k) = ix2 n k :=
    funext fun a => Fin.ext (by
      match a with
      | ⟨0, _⟩ => exact mm2_l0 _ _
      | ⟨1, _⟩ => exact (mm2_l1 _ _).trans hk)
  have er : dot_S197x768_S768x768_S197x768_1_0_0_1_n_n.rhsIdx (ix2 n e) ((contrEquiv1 dot_S197x768_S768x768_S197x768_1_0_0_1_n_n 768 rfl rfl).symm k) = ix2 k e :=
    funext fun a => Fin.ext (by
      match a with
      | ⟨0, _⟩ => exact (mm2_r0 _ _).trans hk
      | ⟨1, _⟩ => exact mm2_r1 _ _)
  rw [el, er]

/-- The output projection's block at (0,n,c) is the row n of the attention output against the column c of the weight,
    plus the bias entry c: the bias vector, given a leading unit axis, is one row broadcast over all 197 rows. -/
theorem pay2 : Pay2 := by
  intro x0 x1 x2 n c
  unfold k2_pay1
  refine (shapeCast_ab_1ab_apply _ _ (0 : Fin 1) n c).trans ?_
  refine (addf_apply _ _ (ix2 n c)).trans ?_
  congr 1
  · refine (mm2 _ _ n c).trans ?_
    refine Finset.sum_congr rfl fun e _ => ?_
    congr 1
    · exact shapeCast_1ab_ab_apply x0 _ n e
    · rw [shapeCast_self]
  · refine (broadcastTo_1b_ab_apply _ _ n c).trans ?_
    exact shapeCast_a_1a_apply x2 _ (0 : Fin 1) c

end Cert.KernelIdeal.Val

end
-- ==== Proof.Payload1.lean ====
/-
  The attention body read at an entry.

  On the three loaded [1,12,197,64] blocks q, k, v the body computes, head by head,
    s(h,i,j) = (Σ_d q(h,i,d) · k(h,j,d)) · 1/8,
    m(h,i)   = max(-∞, max_j s(h,i,j)),           the maximum folded from -∞,
    e(h,i,j) = exp(s(h,i,j) - m(h,i)),
    p(h,i,j) = e(h,i,j) / Σ_j' e(h,i,j'),
    o(h,i,d) = Σ_j p(h,i,j) · v(h,j,d),
  and stores o as a [1,12,197,64] block. Over the extended reals every rounding is the identity, so the block at
  (0,h,i,d) is head h's output at (i,d) of the three blocks' head-h slices (`Cert.Attn.headOut`).

  One lemma per operation that is not pointwise, each at an index written by its coordinates: the two batched
  contractions as sums over the contracted axis (`qk_apply`, `pv_apply`), the two reductions over the key axis as a
  fold of max and a sum (`rowmax_apply`, `rowsum_apply`), the unit column spread back over the keys
  (`keepdims_apply`); then the scaled scores (`scores_apply`), the softmax of any array of scores
  (`softmax_apply`), and the block itself (`pay1`).
-/
import proofs.«121623_j47811575939170_1_alg».proof.Proof.PayStmt
import Idealize.ShloMosaic.Lib.Pipeline.Value
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-- The scores' product at (h,i,j): q's row i against k's row j, summed over the 64 features of head h. -/
theorem qk_apply (x y : FVec Ideal S12x197x64 .bf16)  (h : Fin 12) (i j : Fin 197) :
    matmul (F := Ideal) dot_S12x197x64_S12x197x64_S12x197x197_2_2_1_1_0_0 none x y (constant S12x197x197 .f32 0x00000000#32) (ix3 h i j)
      = ∑ d : Fin 64, x (ix3 h i d) * y (ix3 h j d) := by
  refine (Ideal.matmul_constant_zero_apply dot_S12x197x64_S12x197x64_S12x197x197_2_2_1_1_0_0 none x y (ix3 h i j)).trans ?_
  rw [← Equiv.sum_comp (contrEquiv1 dot_S12x197x64_S12x197x64_S12x197x197_2_2_1_1_0_0 64 rfl rfl).symm]
  refine Finset.sum_congr rfl fun d _ => ?_
  have hk := contrEquiv1_symm_val dot_S12x197x64_S12x197x64_S12x197x197_2_2_1_1_0_0 64 rfl rfl d
  have el : dot_S12x197x64_S12x197x64_S12x197x197_2_2_1_1_0_0.lhsIdx (ix3 h i j) ((contrEquiv1 dot_S12x197x64_S12x197x64_S12x197x197_2_2_1_1_0_0 64 rfl rfl).symm d) = ix3 h i d :=
    funext fun a => Fin.ext (by
      match a with
      | ⟨0, _⟩ =>
        show (dot_S12x197x64_S12x197x64_S12x197x197_2_2_1_1_0_0.lhsIdx _ _ (0 : Fin S12x197x64.rank)).val = _
        unfold DotDims.lhsIdx
        rw [dif_pos (show (0 : Fin S12x197x64.rank) ∈ dot_S12x197x64_S12x197x64_S12x197x197_2_2_1_1_0_0.lhsBatch by decide)]
        rfl
      | ⟨1, _⟩ =>
        show (dot_S12x197x64_S12x197x64_S12x197x197_2_2_1_1_0_0.lhsIdx _ _ (1 : Fin S12x197x64.rank)).val = _
        unfold DotDims.lhsIdx
        rw [dif_neg (show ¬(1 : Fin S12x197x64.rank) ∈ dot_S12x197x64_S12x197x64_S12x197x197_2_2_1_1_0_0.lhsBatch by decide), dif_pos (show (1 : Fin S12x197x64.rank) ∈ dot_S12x197x64_S12x197x64_S12x197x197_2_2_1_1_0_0.lhsNonContracting by decide)]
        rfl
      | ⟨2, _⟩ => exact (dot_S12x197x64_S12x197x64_S12x197x197_2_2_1_1_0_0.lhsIdx_val_of_single rfl _ _).trans hk)
  have er : dot_S12x197x64_S12x197x64_S12x197x197_2_2_1_1_0_0.rhsIdx (ix3 h i j) ((contrEquiv1 dot_S12x197x64_S12x197x64_S12x197x197_2_2_1_1_0_0 64 rfl rfl).symm d) = ix3 h j d :=
    funext fun a => Fin.ext (by
      match a with
      | ⟨0, _⟩ =>
        show (dot_S12x197x64_S12x197x64_S12x197x197_2_2_1_1_0_0.rhsIdx _ _ (0 : Fin S12x197x64.rank)).val = _
        unfold DotDims.rhsIdx
        rw [dif_pos (show (0 : Fin S12x197x64.rank) ∈ dot_S12x197x64_S12x197x64_S12x197x197_2_2_1_1_0_0.rhsBatch by decide)]
        rfl
      | ⟨1, _⟩ =>
        show (dot_S12x197x64_S12x197x64_S12x197x197_2_2_1_1_0_0.rhsIdx _ _ (1 : Fin S12x197x64.rank)).val = _
        unfold DotDims.rhsIdx
        rw [dif_neg (show ¬(1 : Fin S12x197x64.rank) ∈ dot_S12x197x64_S12x197x64_S12x197x197_2_2_1_1_0_0.rhsBatch by decide), dif_pos (show (1 : Fin S12x197x64.rank) ∈ dot_S12x197x64_S12x197x64_S12x197x197_2_2_1_1_0_0.rhsNonContracting by decide)]
        rfl
      | ⟨2, _⟩ => exact (dot_S12x197x64_S12x197x64_S12x197x197_2_2_1_1_0_0.rhsIdx_val_of_single rfl _ _).trans hk)
  rw [el, er]

/-- The weighted sum at (h,i,d): p's row i against v's column d, summed over the 197 keys of head h. -/
theorem pv_apply (x : FVec Ideal S12x197x197 .bf16) (y : FVec Ideal S12x197x64 .bf16) (h : Fin 12) (i : Fin 197) (d : Fin 64) :
    matmul (F := Ideal) dot_S12x197x197_S12x197x64_S12x197x64_2_1_1_2_0_0 none x y (constant S12x197x64 .f32 0x00000000#32) (ix3 h i d)
      = ∑ j : Fin 197, x (ix3 h i j) * y (ix3 h j d) := by
  refine (Ideal.matmul_constant_zero_apply dot_S12x197x197_S12x197x64_S12x197x64_2_1_1_2_0_0 none x y (ix3 h i d)).trans ?_
  rw [← Equiv.sum_comp (contrEquiv1 dot_S12x197x197_S12x197x64_S12x197x64_2_1_1_2_0_0 197 rfl rfl).symm]
  refine Finset.sum_congr rfl fun j _ => ?_
  have hk := contrEquiv1_symm_val dot_S12x197x197_S12x197x64_S12x197x64_2_1_1_2_0_0 197 rfl rfl j
  have el : dot_S12x197x197_S12x197x64_S12x197x64_2_1_1_2_0_0.lhsIdx (ix3 h i d) ((contrEquiv1 dot_S12x197x197_S12x197x64_S12x197x64_2_1_1_2_0_0 197 rfl rfl).symm j) = ix3 h i j :=
    funext fun a => Fin.ext (by
      match a with
      | ⟨0, _⟩ =>
        show (dot_S12x197x197_S12x197x64_S12x197x64_2_1_1_2_0_0.lhsIdx _ _ (0 : Fin S12x197x197.rank)).val = _
        unfold DotDims.lhsIdx
        rw [dif_pos (show (0 : Fin S12x197x197.rank) ∈ dot_S12x197x197_S12x197x64_S12x197x64_2_1_1_2_0_0.lhsBatch by decide)]
        rfl
      | ⟨1, _⟩ =>
        show (dot_S12x197x197_S12x197x64_S12x197x64_2_1_1_2_0_0.lhsIdx _ _ (1 : Fin S12x197x197.rank)).val = _
        unfold DotDims.lhsIdx
        rw [dif_neg (show ¬(1 : Fin S12x197x197.rank) ∈ dot_S12x197x197_S12x197x64_S12x197x64_2_1_1_2_0_0.lhsBatch by decide), dif_pos (show (1 : Fin S12x197x197.rank) ∈ dot_S12x197x197_S12x197x64_S12x197x64_2_1_1_2_0_0.lhsNonContracting by decide)]
        rfl
      | ⟨2, _⟩ => exact (dot_S12x197x197_S12x197x64_S12x197x64_2_1_1_2_0_0.lhsIdx_val_of_single rfl _ _).trans hk)
  have er : dot_S12x197x197_S12x197x64_S12x197x64_2_1_1_2_0_0.rhsIdx (ix3 h i d) ((contrEquiv1 dot_S12x197x197_S12x197x64_S12x197x64_2_1_1_2_0_0 197 rfl rfl).symm j) = ix3 h j d :=
    funext fun a => Fin.ext (by
      match a with
      | ⟨0, _⟩ =>
        show (dot_S12x197x197_S12x197x64_S12x197x64_2_1_1_2_0_0.rhsIdx _ _ (0 : Fin S12x197x64.rank)).val = _
        unfold DotDims.rhsIdx
        rw [dif_pos (show (0 : Fin S12x197x64.rank) ∈ dot_S12x197x197_S12x197x64_S12x197x64_2_1_1_2_0_0.rhsBatch by decide)]
        rfl
      | ⟨1, _⟩ => exact (dot_S12x197x197_S12x197x64_S12x197x64_2_1_1_2_0_0.rhsIdx_val_of_single rfl _ _).trans hk
      | ⟨2, _⟩ =>
        show (dot_S12x197x197_S12x197x64_S12x197x64_2_1_1_2_0_0.rhsIdx _ _ (2 : Fin S12x197x64.rank)).val = _
        unfold DotDims.rhsIdx
        rw [dif_neg (show ¬(2 : Fin S12x197x64.rank) ∈ dot_S12x197x197_S12x197x64_S12x197x64_2_1_1_2_0_0.rhsBatch by decide), dif_pos (show (2 : Fin S12x197x64.rank) ∈ dot_S12x197x197_S12x197x64_S12x197x64_2_1_1_2_0_0.rhsNonContracting by decide)]
        rfl)
  rw [el, er]

/-- A row's running maximum at (h,i): the maximum over the 197 keys, folded from the accumulator's word. -/
theorem rowmax_apply (s : FVec Ideal S12x197x197 .f32) (h : Fin 12) (i : Fin 197) :
    multiReduction (F := Ideal) .maximumf [2] S12x197 s 0xFF800000#32 reduces_S12x197x197_S12x197 (.inl rfl) rfl (ix2 h i)
      = (Finset.univ : Finset (Fin 197)).fold max (Ideal.ofBits .f32 0xFF800000#32) (fun j => s (ix3 h i j)) := by
  refine (Ideal.multiReduction_maximumf_single s 0xFF800000#32 reduces_S12x197x197_S12x197 (.inl rfl) rfl (ix2 h i)).trans ?_
  have e : (s ∘ reduces_S12x197x197_S12x197.lift (ix2 h i)) = fun j : Fin 197 => s (ix3 h i j) :=
    funext fun j => congrArg s (funext fun c => Fin.ext (by
      match c with
      | ⟨0, _⟩ => rfl
      | ⟨1, _⟩ => rfl
      | ⟨2, _⟩ => rfl))
  exact congrArg (fun r : Fin 197 → EReal => (Finset.univ : Finset (Fin 197)).fold max (Ideal.ofBits .f32 0xFF800000#32) r) e

/-- A row's sum at (h,i): the sum over the 197 keys, nothing left of the zero accumulator. -/
theorem rowsum_apply (s : FVec Ideal S12x197x197 .f32) (h : Fin 12) (i : Fin 197) :
    multiReduction (F := Ideal) .add [2] S12x197 s 0x00000000#32 reduces_S12x197x197_S12x197 (.inl rfl) rfl (ix2 h i)
      = ∑ j : Fin 197, s (ix3 h i j) := by
  refine (Ideal.multiReduction_add_single s 0x00000000#32 reduces_S12x197x197_S12x197 (.inl rfl) rfl (ix2 h i)).trans ?_
  refine Finset.sum_congr rfl fun j _ => congrArg s (funext fun c => Fin.ext (by
    match c with
    | ⟨0, _⟩ => rfl
    | ⟨1, _⟩ => rfl
    | ⟨2, _⟩ => rfl))

/-- A per-row value kept as a unit column and spread over the keys reads, at (h,i,j), the row's value at (h,i). -/
theorem keepdims_apply {α : Type} (m : S12x197.Idx → α) (h : Fin 12) (i j : Fin 197) :
    broadcastTo S12x197x197 (shapeCast S12x197x1 m shapeCasts_S12x197_S12x197x1) broadcasts_S12x197x1_S12x197x197 (ix3 h i j)
      = m (ix2 h i) := by
  refine (broadcastTo_apply _ broadcasts_S12x197x1_S12x197x197 (ix3 h i j) (ix3 h i (0 : Fin 1)) (fun a => by
    match a with
    | ⟨0, _⟩ => rfl
    | ⟨1, _⟩ => rfl
    | ⟨2, _⟩ => rfl)).trans ?_
  refine shapeCast_apply m shapeCasts_S12x197_S12x197x1 (ix3 h i (0 : Fin 1)) (ix2 h i) ?_
  rw [Shape.rowMajor_val_two, Shape.rowMajor_val_three]
  show h.val * 197 + i.val = (h.val * 197 + i.val) * 1 + 0
  omega

/-- The scaled scores at (h,i,j). -/
theorem scores_apply (q k : FVec Ideal S12x197x64 .bf16) (h : Fin 12) (i j : Fin 197) :
    mulf (matmul (F := Ideal) dot_S12x197x64_S12x197x64_S12x197x197_2_2_1_1_0_0 none q k (constant S12x197x197 .f32 0x00000000#32))
        (broadcast S12x197x197 (Scalar.ofBits (F := Ideal) .f32 0x3E000000#32)) (ix3 h i j)
      = Cert.Attn.score (fun i d => q (ix3 h i d)) (fun j d => k (ix3 h j d)) i j := by
  refine (mulf_apply _ _ _).trans ?_
  rw [qk_apply]
  rfl

/-- The softmax of the rows of any [12,197,197] array of scores, as the body spells it, at (h,i,j). -/
theorem softmax_apply (s : FVec Ideal S12x197x197 .f32) (h : Fin 12) (i j : Fin 197) :
    divf
        (exp (subf s (broadcastTo S12x197x197 (shapeCast S12x197x1
          (maximumf (broadcast S12x197 (Scalar.ofBits (F := Ideal) .f32 0xFF800000#32))
            (multiReduction (F := Ideal) .maximumf [2] S12x197 s 0xFF800000#32 reduces_S12x197x197_S12x197 (.inl rfl) rfl))
          shapeCasts_S12x197_S12x197x1) broadcasts_S12x197x1_S12x197x197)))
        (broadcastTo S12x197x197 (shapeCast S12x197x1
          (multiReduction (F := Ideal) .add [2] S12x197
            (exp (subf s (broadcastTo S12x197x197 (shapeCast S12x197x1
              (maximumf (broadcast S12x197 (Scalar.ofBits (F := Ideal) .f32 0xFF800000#32))
                (multiReduction (F := Ideal) .maximumf [2] S12x197 s 0xFF800000#32 reduces_S12x197x197_S12x197 (.inl rfl) rfl))
              shapeCasts_S12x197_S12x197x1) broadcasts_S12x197x1_S12x197x197)))
            0x00000000#32 reduces_S12x197x197_S12x197 (.inl rfl) rfl)
          shapeCasts_S12x197_S12x197x1) broadcasts_S12x197x1_S12x197x197)
        (ix3 h i j)
      = Cert.Attn.rowSoftmax (fun j => s (ix3 h i j)) j := by
  have hm : ∀ j' : Fin 197, (broadcastTo S12x197x197 (shapeCast S12x197x1
          (maximumf (broadcast S12x197 (Scalar.ofBits (F := Ideal) .f32 0xFF800000#32))
            (multiReduction (F := Ideal) .maximumf [2] S12x197 s 0xFF800000#32 reduces_S12x197x197_S12x197 (.inl rfl) rfl))
          shapeCasts_S12x197_S12x197x1) broadcasts_S12x197x1_S12x197x197) (ix3 h i j')
        = Cert.Attn.rowMax (fun j => s (ix3 h i j)) := fun j' => by
    refine (keepdims_apply _ h i j').trans ?_
    refine (maximumf_apply _ _ _).trans ?_
    rw [rowmax_apply]
    rfl
  have he : ∀ j' : Fin 197, (exp (subf s (broadcastTo S12x197x197 (shapeCast S12x197x1
          (maximumf (broadcast S12x197 (Scalar.ofBits (F := Ideal) .f32 0xFF800000#32))
            (multiReduction (F := Ideal) .maximumf [2] S12x197 s 0xFF800000#32 reduces_S12x197x197_S12x197 (.inl rfl) rfl))
          shapeCasts_S12x197_S12x197x1) broadcasts_S12x197x1_S12x197x197))) (ix3 h i j')
        = Cert.Attn.rowExp (fun j => s (ix3 h i j)) j' := fun j' => by
    show Ideal.exp (s (ix3 h i j') - _) = _
    rw [hm j']
    rfl
  refine (divf_apply _ _ _).trans ?_
  rw [he j, keepdims_apply, rowsum_apply]
  unfold Cert.Attn.rowSoftmax
  exact congrArg (Ideal.div _) (Finset.sum_congr rfl fun j' _ => he j')

/-- The attention body's block at (0,h,i,d) is head h's output at (i,d). -/
theorem pay1 : Pay1 := by
  intro x0 x1 x2 h i d
  have e0 : (fun (i : Fin 197) (d : Fin 64) => shapeCast S12x197x64 x0 shapeCasts_S1x12x197x64_S12x197x64 (ix3 h i d))
      = fun i d => x0 (ix4 (0 : Fin 1) h i d) :=
    funext fun i => funext fun d => shapeCast_1abc_abc_apply x0 shapeCasts_S1x12x197x64_S12x197x64 h i d
  have e1 : (fun (j : Fin 197) (d : Fin 64) => shapeCast S12x197x64 x1 shapeCasts_S1x12x197x64_S12x197x64 (ix3 h j d))
      = fun j d => x1 (ix4 (0 : Fin 1) h j d) :=
    funext fun j => funext fun d => shapeCast_1abc_abc_apply x1 shapeCasts_S1x12x197x64_S12x197x64 h j d
  unfold k1_pay1
  refine (shapeCast_abc_1abc_apply _ shapeCasts_S12x197x64_S1x12x197x64 0 h i d).trans ?_
  refine (truncf_apply (ψ := .bf16) _ bitsLt_bf16_f32 (ix3 h i d)).trans ?_
  refine (pv_apply _ _ h i d).trans ?_
  unfold Cert.Attn.headOut
  refine Finset.sum_congr rfl fun j _ => ?_
  refine congrArg₂ (· * ·) ?_ (shapeCast_1abc_abc_apply x2 shapeCasts_S1x12x197x64_S12x197x64 h j d)
  refine (truncf_apply (ψ := .bf16) _ bitsLt_bf16_f32 (ix3 h i j)).trans ?_
  refine (softmax_apply _ h i j).trans ?_
  refine congrArg (fun r => Cert.Attn.rowSoftmax r j) (funext fun j' => ?_)
  refine (scores_apply _ _ h i j').trans ?_
  exact congrArg₂ (fun a b => Cert.Attn.score a b i j') e0 e1

end Cert.KernelIdeal.Val

end
-- ==== Proof.Blocks.lean ====
/-
  From blocks to whole arrays, for the three kernel regions. Each region runs its body once per batch row t (64 points);
  point t reads row block t of each blocked operand (and the whole of each unblocked one) and writes back row block t of
  its result. Given what a body computes entry by entry on its blocks (the propositions Pay0, Pay1, Pay2), what point t
  writes back is block t of one whole-array function of the arrays the region finds; every index lies in the block of the
  point of its row; so the array after the region is that function:
    * after the first region,  P(b,n,e)   = Σ_d x(b,n,d) · w(d,e);
    * after the second,        O(b,h,i,d) = head (b,h)'s attention output at (i,d);
    * after the third,         out(b,n,c) = Σ_e a(b,n,e) · w(e,c) + bias(c).
-/
import proofs.«121623_j47811575939170_1_alg».proof.Proof.Gen.KernelIdeal.Frame
import proofs.«121623_j47811575939170_1_alg».proof.Proof.PayStmt
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

theorem zero3 : (![0, 0, 0] : Fin 3 → Nat) = fun _ => 0 := funext fun a => by fin_cases a <;> rfl
theorem zero2 : (![0, 0] : Fin 2 → Nat) = fun _ => 0 := funext fun a => by fin_cases a <;> rfl

/-! ## The first projection: x [64,197,768] in row blocks, the weight [768,2304] whole, P [64,197,2304] in row blocks -/

/-- The index maps over the grid: point t takes row block t of x and of P, and the whole weight. -/
theorem index0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Point t's block of x is row t of x. -/
theorem xblock0 (c : Dev nD) (t : Fin cfg0.N) (b : Fin 64) (hb : b.val = t.val) (n : Fin 197) (d : Fin 768) :
    (iblk0 (F := Ideal) V c 0 t : Vec Ideal S1x197x768 .f32) (ix3 (0 : Fin 1) n d)
      = (V c main_arg0 : S64x197x768.Idx → EReal) (ix3 b n d) := by
  obtain ⟨e0, e1, e2, -⟩ := index0 t
  unfold iblk0
  rw [View.read_apply]
  show (V c main_arg0 : S64x197x768.Idx → EReal) _ = _
  refine congrArg (V c main_arg0 : S64x197x768.Idx → EReal) (funext fun a => Fin.ext ?_)
  match a with
  | ⟨0, _⟩ => show win0_0.index t (0 : Fin 3) * 1 + 1 * 0 = b.val; omega
  | ⟨1, _⟩ => show win0_0.index t (1 : Fin 3) * 197 + 1 * n.val = n.val; omega
  | ⟨2, _⟩ => show win0_0.index t (2 : Fin 3) * 768 + 1 * d.val = d.val; omega

/-- Point t's block of the weight is the weight. -/
theorem wblock0 (c : Dev nD) (t : Fin cfg0.N) (d : Fin 768) (e : Fin 2304) :
    (iblk0 (F := Ideal) V c 1 t : Vec Ideal S768x2304 .bf16) (ix2 d e)
      = (V c main_v1 : S768x2304.Idx → EReal) (ix2 d e) := by
  obtain ⟨-, -, -, e0, e1, -⟩ := index0 t
  unfold iblk0
  rw [View.read_apply]
  show (V c main_v1 : S768x2304.Idx → EReal) _ = _
  refine congrArg (V c main_v1 : S768x2304.Idx → EReal) (funext fun a => Fin.ext ?_)
  match a with
  | ⟨0, _⟩ => show win0_1.index t (0 : Fin 2) * 768 + 1 * d.val = d.val; omega
  | ⟨1, _⟩ => show win0_1.index t (1 : Fin 2) * 2304 + 1 * e.val = e.val; omega

/-- WHAT POINT t WRITES BACK is block t of the projection of the arrays the region finds. -/
theorem flushed0 (hp : Pay0) (c : Dev nD) (t : Fin cfg0.N) :
    (dat0 (F := Ideal) V c).flushed 2 t
      = ((cfg0.win 2).blk t).view.read (Elt Ideal) (Cert.Attn.projArr 2304 (V c main_arg0) (V c main_v1)) := by
  show (cfg0.win 2).cut (grid0.coords t) ((dat0 V c).after 2 t) = _
  rw [after0_2]
  unfold out0_2
  rw [View.canon_unit_zero zero3]
  simp only [View.ld_unit_zero (S := S1x197x768) zero3, View.ld_unit_zero (S := S768x2304) zero2]
  have ht : t.val < 64 := t.isLt
  obtain ⟨-, -, -, -, -, e0, e1, e2⟩ := index0 t
  funext y
  obtain ⟨z, n, e, rfl⟩ : ∃ (z : Fin 1) (n : Fin 197) (e : Fin 2304), y = ix3 z n e := ⟨y 0, y 1, y 2, eq_ix3 y⟩
  obtain rfl : z = 0 := Subsingleton.elim _ _
  have hemb : ((cfg0.win 2).blk t).view.emb (ix3 (0 : Fin 1) n e) = (ix3 (⟨t.val, ht⟩ : Fin 64) n e : S64x197x2304.Idx) := by
    funext a; apply Fin.ext
    match a with
    | ⟨0, _⟩ => show win0_2.index t (0 : Fin 3) * 1 + 1 * 0 = t.val; omega
    | ⟨1, _⟩ => show win0_2.index t (1 : Fin 3) * 197 + 1 * n.val = n.val; omega
    | ⟨2, _⟩ => show win0_2.index t (2 : Fin 3) * 2304 + 1 * e.val = e.val; omega
  rw [View.read_apply, hemb]
  show k0_pay1 (F := Ideal) (iblk0 V c 0 t) (iblk0 V c 1 t) (ix3 (0 : Fin 1) n e) = Cert.Attn.projArr 2304 (V c main_arg0) (V c main_v1) (ix3 (⟨t.val, ht⟩ : Fin 64) n e)
  rw [hp, Cert.Attn.projArr_apply]
  exact Finset.sum_congr rfl fun d _ => by rw [xblock0 V c t ⟨t.val, ht⟩ rfl n d, wblock0 V c t d e]

/-- An index of P is in point t's block iff each coordinate is in the block's range on its axis. -/
theorem mem_blk0 (t : Fin cfg0.N) (i : S64x197x2304.Idx) :
    i ∈ ((cfg0.win 2).blk t).view.set ↔ ∀ a : Fin 3, win0_2.index t a * S1x197x2304.size a ≤ (i a).val ∧ (i a).val < win0_2.index t a * S1x197x2304.size a + S1x197x2304.size a := by
  show i ∈ ((View.whole main_v4).slice (win0_2.rect t)).set ↔ _
  rw [View.set_slice_whole, Rect.mem_set_unit]
  exact Iff.rfl

/-- Every index of P lies in the block of the point of its row. -/
theorem cover0 (i : S64x197x2304.Idx) :
    ∃ t : Fin cfg0.N, (cfg0.win 2).flush t = true ∧ i ∈ ((cfg0.win 2).blk t).view.set := by
  have h0 : (i 0).val < 64 := (i 0).isLt
  have h1 : (i 1).val < 197 := (i 1).isLt
  have h2 : (i 2).val < 2304 := (i 2).isLt
  obtain ⟨t, ht⟩ : ∃ t : Fin cfg0.N, t.val = (i 0).val := ⟨⟨(i 0).val, h0⟩, rfl⟩
  refine ⟨t, flush0_2 t, ?_⟩
  rw [mem_blk0]
  obtain ⟨-, -, -, -, -, e0, e1, e2⟩ := index0 t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 197 ≤ (i 1).val ∧ (i 1).val < win0_2.index t (1 : Fin 3) * 197 + 197; omega
  | ⟨2, _⟩ => show win0_2.index t (2 : Fin 3) * 2304 ≤ (i 2).val ∧ (i 2).val < win0_2.index t (2 : Fin 3) * 2304 + 2304; omega

/-- THE ARRAY after the first region: the projection of x by the weight. -/
theorem region0_array (hp : Pay0) (c : Dev nD) :
    (dat0 (F := Ideal) V c).arrAt 2 cfg0.N = Cert.Attn.projArr 2304 (V c main_arg0) (V c main_v1) :=
  (dat0 (F := Ideal) V c).arrAt_eq_of_cover 2 _ (fun t _ => flushed0 V hp c t) cover0

/-! ## Attention: q, k, v and O, all [64,12,197,64], in batch-row blocks [1,12,197,64] -/

theorem zero4 : (![0, 0, 0, 0] : Fin 4 → Nat) = fun _ => 0 := funext fun a => by fin_cases a <;> rfl

/-- The index maps over the grid: point t takes batch row t of q, of k, of v and of O. -/
theorem index1 : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 4) = t.val ∧ win1_2.index t (1 : Fin 4) = 0 ∧ win1_2.index t (2 : Fin 4) = 0 ∧ win1_2.index t (3 : Fin 4) = 0)
    ∧ (win1_3.index t (0 : Fin 4) = t.val ∧ win1_3.index t (1 : Fin 4) = 0 ∧ win1_3.index t (2 : Fin 4) = 0 ∧ win1_3.index t (3 : Fin 4) = 0) :=
  (by decide +kernel : ∀ t : Fin grid1.N, _)

/-- Point t's block of q is batch row t of q. -/
theorem qblock1 (c : Dev nD) (t : Fin cfg1.N) (b : Fin 64) (hb : b.val = t.val) (h : Fin 12) (i : Fin 197) (d : Fin 64) :
    (iblk1 (F := Ideal) V c 0 t : Vec Ideal S1x12x197x64 .bf16) (ix4 (0 : Fin 1) h i d)
      = (V c main_v10 : S64x12x197x64.Idx → EReal) (ix4 b h i d) := by
  obtain ⟨⟨e0, e1, e2, e3⟩, -⟩ := index1 t
  unfold iblk1
  rw [View.read_apply]
  show (V c main_v10 : S64x12x197x64.Idx → EReal) _ = _
  refine congrArg (V c main_v10 : S64x12x197x64.Idx → EReal) (funext fun a => Fin.ext ?_)
  match a with
  | ⟨0, _⟩ => show win1_0.index t (0 : Fin 4) * 1 + 1 * 0 = b.val; omega
  | ⟨1, _⟩ => show win1_0.index t (1 : Fin 4) * 12 + 1 * h.val = h.val; omega
  | ⟨2, _⟩ => show win1_0.index t (2 : Fin 4) * 197 + 1 * i.val = i.val; omega
  | ⟨3, _⟩ => show win1_0.index t (3 : Fin 4) * 64 + 1 * d.val = d.val; omega

/-- Point t's block of k is batch row t of k. -/
theorem kblock1 (c : Dev nD) (t : Fin cfg1.N) (b : Fin 64) (hb : b.val = t.val) (h : Fin 12) (i : Fin 197) (d : Fin 64) :
    (iblk1 (F := Ideal) V c 1 t : Vec Ideal S1x12x197x64 .bf16) (ix4 (0 : Fin 1) h i d)
      = (V c main_v13 : S64x12x197x64.Idx → EReal) (ix4 b h i d) := by
  obtain ⟨-, ⟨e0, e1, e2, e3⟩, -⟩ := index1 t
  unfold iblk1
  rw [View.read_apply]
  show (V c main_v13 : S64x12x197x64.Idx → EReal) _ = _
  refine congrArg (V c main_v13 : S64x12x197x64.Idx → EReal) (funext fun a => Fin.ext ?_)
  match a with
  | ⟨0, _⟩ => show win1_1.index t (0 : Fin 4) * 1 + 1 * 0 = b.val; omega
  | ⟨1, _⟩ => show win1_1.index t (1 : Fin 4) * 12 + 1 * h.val = h.val; omega
  | ⟨2, _⟩ => show win1_1.index t (2 : Fin 4) * 197 + 1 * i.val = i.val; omega
  | ⟨3, _⟩ => show win1_1.index t (3 : Fin 4) * 64 + 1 * d.val = d.val; omega

/-- Point t's block of v is batch row t of v. -/
theorem vblock1 (c : Dev nD) (t : Fin cfg1.N) (b : Fin 64) (hb : b.val = t.val) (h : Fin 12) (i : Fin 197) (d : Fin 64) :
    (iblk1 (F := Ideal) V c 2 t : Vec Ideal S1x12x197x64 .bf16) (ix4 (0 : Fin 1) h i d)
      = (V c main_v16 : S64x12x197x64.Idx → EReal) (ix4 b h i d) := by
  obtain ⟨-, -, ⟨e0, e1, e2, e3⟩, -⟩ := index1 t
  unfold iblk1
  rw [View.read_apply]
  show (V c main_v16 : S64x12x197x64.Idx → EReal) _ = _
  refine congrArg (V c main_v16 : S64x12x197x64.Idx → EReal) (funext fun a => Fin.ext ?_)
  match a with
  | ⟨0, _⟩ => show win1_2.index t (0 : Fin 4) * 1 + 1 * 0 = b.val; omega
  | ⟨1, _⟩ => show win1_2.index t (1 : Fin 4) * 12 + 1 * h.val = h.val; omega
  | ⟨2, _⟩ => show win1_2.index t (2 : Fin 4) * 197 + 1 * i.val = i.val; omega
  | ⟨3, _⟩ => show win1_2.index t (3 : Fin 4) * 64 + 1 * d.val = d.val; omega

/-- WHAT POINT t WRITES BACK is block t of the head-by-head attention of the arrays the region finds. -/
theorem flushed1 (hp : Pay1) (c : Dev nD) (t : Fin cfg1.N) :
    (dat1 (F := Ideal) V c).flushed 3 t
      = ((cfg1.win 3).blk t).view.read (Elt Ideal) (Cert.Attn.attnArr (V c main_v10) (V c main_v13) (V c main_v16)) := by
  show (cfg1.win 3).cut (grid1.coords t) ((dat1 V c).after 3 t) = _
  rw [after1_3]
  unfold out1_3
  rw [View.canon_unit_zero zero4]
  simp only [View.ld_unit_zero (S := S1x12x197x64) zero4]
  have ht : t.val < 64 := t.isLt
  obtain ⟨-, -, -, e0, e1, e2, e3⟩ := index1 t
  funext y
  obtain ⟨z, h, i, d, rfl⟩ : ∃ (z : Fin 1) (h : Fin 12) (i : Fin 197) (d : Fin 64), y = ix4 z h i d := ⟨y 0, y 1, y 2, y 3, eq_ix4 y⟩
  obtain rfl : z = 0 := Subsingleton.elim _ _
  have hemb : ((cfg1.win 3).blk t).view.emb (ix4 (0 : Fin 1) h i d) = (ix4 (⟨t.val, ht⟩ : Fin 64) h i d : S64x12x197x64.Idx) := by
    funext a; apply Fin.ext
    match a with
    | ⟨0, _⟩ => show win1_3.index t (0 : Fin 4) * 1 + 1 * 0 = t.val; omega
    | ⟨1, _⟩ => show win1_3.index t (1 : Fin 4) * 12 + 1 * h.val = h.val; omega
    | ⟨2, _⟩ => show win1_3.index t (2 : Fin 4) * 197 + 1 * i.val = i.val; omega
    | ⟨3, _⟩ => show win1_3.index t (3 : Fin 4) * 64 + 1 * d.val = d.val; omega
  rw [View.read_apply, hemb]
  show k1_pay1 (F := Ideal) (iblk1 V c 0 t) (iblk1 V c 1 t) (iblk1 V c 2 t) (ix4 (0 : Fin 1) h i d)
    = Cert.Attn.attnArr (V c main_v10) (V c main_v13) (V c main_v16) (ix4 (⟨t.val, ht⟩ : Fin 64) h i d)
  rw [hp, Cert.Attn.attnArr_apply]
  have eq : (fun (i : Fin 197) (d : Fin 64) => (iblk1 (F := Ideal) V c 0 t : Vec Ideal S1x12x197x64 .bf16) (ix4 (0 : Fin 1) h i d))
      = fun i d => (V c main_v10 : S64x12x197x64.Idx → EReal) (ix4 (⟨t.val, ht⟩ : Fin 64) h i d) :=
    funext fun i => funext fun d => qblock1 V c t ⟨t.val, ht⟩ rfl h i d
  have ek : (fun (j : Fin 197) (d : Fin 64) => (iblk1 (F := Ideal) V c 1 t : Vec Ideal S1x12x197x64 .bf16) (ix4 (0 : Fin 1) h j d))
      = fun j d => (V c main_v13 : S64x12x197x64.Idx → EReal) (ix4 (⟨t.val, ht⟩ : Fin 64) h j d) :=
    funext fun j => funext fun d => kblock1 V c t ⟨t.val, ht⟩ rfl h j d
  have ev : (fun (j : Fin 197) (d : Fin 64) => (iblk1 (F := Ideal) V c 2 t : Vec Ideal S1x12x197x64 .bf16) (ix4 (0 : Fin 1) h j d))
      = fun j d => (V c main_v16 : S64x12x197x64.Idx → EReal) (ix4 (⟨t.val, ht⟩ : Fin 64) h j d) :=
    funext fun j => funext fun d => vblock1 V c t ⟨t.val, ht⟩ rfl h j d
  exact congrFun (congrFun (congr (congr (congrArg Cert.Attn.headOut eq) ek) ev) i) d

/-- An index of O is in point t's block iff each coordinate is in the block's range on its axis. -/
theorem mem_blk1 (t : Fin cfg1.N) (i : S64x12x197x64.Idx) :
    i ∈ ((cfg1.win 3).blk t).view.set ↔ ∀ a : Fin 4, win1_3.index t a * S1x12x197x64.size a ≤ (i a).val ∧ (i a).val < win1_3.index t a * S1x12x197x64.size a + S1x12x197x64.size a := by
  show i ∈ ((View.whole main_v17).slice (win1_3.rect t)).set ↔ _
  rw [View.set_slice_whole, Rect.mem_set_unit]
  exact Iff.rfl

/-- Every index of O lies in the block of the point of its batch row. -/
theorem cover1 (i : S64x12x197x64.Idx) :
    ∃ t : Fin cfg1.N, (cfg1.win 3).flush t = true ∧ i ∈ ((cfg1.win 3).blk t).view.set := by
  have h0 : (i 0).val < 64 := (i 0).isLt
  have h1 : (i 1).val < 12 := (i 1).isLt
  have h2 : (i 2).val < 197 := (i 2).isLt
  have h3 : (i 3).val < 64 := (i 3).isLt
  obtain ⟨t, ht⟩ : ∃ t : Fin cfg1.N, t.val = (i 0).val := ⟨⟨(i 0).val, h0⟩, rfl⟩
  refine ⟨t, flush1_3 t, ?_⟩
  rw [mem_blk1]
  obtain ⟨-, -, -, e0, e1, e2, e3⟩ := index1 t
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 12 ≤ (i 1).val ∧ (i 1).val < win1_3.index t (1 : Fin 4) * 12 + 12; omega
  | ⟨2, _⟩ => show win1_3.index t (2 : Fin 4) * 197 ≤ (i 2).val ∧ (i 2).val < win1_3.index t (2 : Fin 4) * 197 + 197; omega
  | ⟨3, _⟩ => show win1_3.index t (3 : Fin 4) * 64 ≤ (i 3).val ∧ (i 3).val < win1_3.index t (3 : Fin 4) * 64 + 64; omega

/-- THE ARRAY after the second region: attention head by head. -/
theorem region1_array (hp : Pay1) (c : Dev nD) :
    (dat1 (F := Ideal) V c).arrAt 3 cfg1.N = Cert.Attn.attnArr (V c main_v10) (V c main_v13) (V c main_v16) :=
  (dat1 (F := Ideal) V c).arrAt_eq_of_cover 3 _ (fun t _ => flushed1 V hp c t) cover1

/-! ## The output projection: a [64,197,768] in row blocks, the weight [768,768] and the bias [768] whole, out [64,197,768] in row blocks -/

theorem zero1 : (![0] : Fin 1 → Nat) = fun _ => 0 := funext fun a => by fin_cases a; rfl

/-- The index maps over the grid: point t takes row block t of a and of out, and the whole weight and bias. -/
theorem index2 : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 1) = 0
    ∧ win2_3.index t (0 : Fin 3) = t.val ∧ win2_3.index t (1 : Fin 3) = 0 ∧ win2_3.index t (2 : Fin 3) = 0 :=
  (by decide +kernel : ∀ t : Fin grid2.N, _)

/-- Point t's block of a is row t of a. -/
theorem ablock2 (c : Dev nD) (t : Fin cfg2.N) (b : Fin 64) (hb : b.val = t.val) (n : Fin 197) (e : Fin 768) :
    (iblk2 (F := Ideal) V c 0 t : Vec Ideal S1x197x768 .bf16) (ix3 (0 : Fin 1) n e)
      = (V c main_v19 : S64x197x768.Idx → EReal) (ix3 b n e) := by
  obtain ⟨e0, e1, e2, -⟩ := index2 t
  unfold iblk2
  rw [View.read_apply]
  show (V c main_v19 : S64x197x768.Idx → EReal) _ = _
  refine congrArg (V c main_v19 : S64x197x768.Idx → EReal) (funext fun a => Fin.ext ?_)
  match a with
  | ⟨0, _⟩ => show win2_0.index t (0 : Fin 3) * 1 + 1 * 0 = b.val; omega
  | ⟨1, _⟩ => show win2_0.index t (1 : Fin 3) * 197 + 1 * n.val = n.val; omega
  | ⟨2, _⟩ => show win2_0.index t (2 : Fin 3) * 768 + 1 * e.val = e.val; omega

/-- Point t's block of the weight is the weight. -/
theorem wblock2 (c : Dev nD) (t : Fin cfg2.N) (e : Fin 768) (k : Fin 768) :
    (iblk2 (F := Ideal) V c 1 t : Vec Ideal S768x768 .bf16) (ix2 e k)
      = (V c main_v3 : S768x768.Idx → EReal) (ix2 e k) := by
  obtain ⟨-, -, -, e0, e1, -⟩ := index2 t
  unfold iblk2
  rw [View.read_apply]
  show (V c main_v3 : S768x768.Idx → EReal) _ = _
  refine congrArg (V c main_v3 : S768x768.Idx → EReal) (funext fun a => Fin.ext ?_)
  match a with
  | ⟨0, _⟩ => show win2_1.index t (0 : Fin 2) * 768 + 1 * e.val = e.val; omega
  | ⟨1, _⟩ => show win2_1.index t (1 : Fin 2) * 768 + 1 * k.val = k.val; omega

/-- Point t's block of the bias is the bias. -/
theorem bblock2 (c : Dev nD) (t : Fin cfg2.N) (k : Fin 768) :
    (iblk2 (F := Ideal) V c 2 t : Vec Ideal S768 .f32) (ix1 k)
      = (V c main_arg3 : S768.Idx → EReal) (ix1 k) := by
  obtain ⟨-, -, -, -, -, e0, -⟩ := index2 t
  unfold iblk2
  rw [View.read_apply]
  show (V c main_arg3 : S768.Idx → EReal) _ = _
  refine congrArg (V c main_arg3 : S768.Idx → EReal) (funext fun a => Fin.ext ?_)
  match a with
  | ⟨0, _⟩ => show win2_2.index t (0 : Fin 1) * 768 + 1 * k.val = k.val; omega

/-- WHAT POINT t WRITES BACK is block t of the biased projection of the arrays the region finds. -/
theorem flushed2 (hp : Pay2) (c : Dev nD) (t : Fin cfg2.N) :
    (dat2 (F := Ideal) V c).flushed 3 t
      = ((cfg2.win 3).blk t).view.read (Elt Ideal) (Cert.Attn.projBiasArr (V c main_v19) (V c main_v3) (V c main_arg3)) := by
  show (cfg2.win 3).cut (grid2.coords t) ((dat2 V c).after 3 t) = _
  rw [after2_3]
  unfold out2_3
  rw [View.canon_unit_zero zero3]
  simp only [View.ld_unit_zero (S := S1x197x768) zero3, View.ld_unit_zero (S := S768x768) zero2, View.ld_unit_zero (S := S768) zero1]
  have ht : t.val < 64 := t.isLt
  obtain ⟨-, -, -, -, -, -, e0, e1, e2⟩ := index2 t
  funext y
  obtain ⟨z, n, k, rfl⟩ : ∃ (z : Fin 1) (n : Fin 197) (k : Fin 768), y = ix3 z n k := ⟨y 0, y 1, y 2, eq_ix3 y⟩
  obtain rfl : z = 0 := Subsingleton.elim _ _
  have hemb : ((cfg2.win 3).blk t).view.emb (ix3 (0 : Fin 1) n k) = (ix3 (⟨t.val, ht⟩ : Fin 64) n k : S64x197x768.Idx) := by
    funext a; apply Fin.ext
    match a with
    | ⟨0, _⟩ => show win2_3.index t (0 : Fin 3) * 1 + 1 * 0 = t.val; omega
    | ⟨1, _⟩ => show win2_3.index t (1 : Fin 3) * 197 + 1 * n.val = n.val; omega
    | ⟨2, _⟩ => show win2_3.index t (2 : Fin 3) * 768 + 1 * k.val = k.val; omega
  rw [View.read_apply, hemb]
  show k2_pay1 (F := Ideal) (iblk2 V c 0 t) (iblk2 V c 1 t) (iblk2 V c 2 t) (ix3 (0 : Fin 1) n k)
    = Cert.Attn.projBiasArr (V c main_v19) (V c main_v3) (V c main_arg3) (ix3 (⟨t.val, ht⟩ : Fin 64) n k)
  rw [hp, Cert.Attn.projBiasArr_apply, bblock2 V c t k]
  exact congrArg (· + _) (Finset.sum_congr rfl fun e _ => by rw [ablock2 V c t ⟨t.val, ht⟩ rfl n e, wblock2 V c t e k])

/-- An index of out is in point t's block iff each coordinate is in the block's range on its axis. -/
theorem mem_blk2 (t : Fin cfg2.N) (i : S64x197x768.Idx) :
    i ∈ ((cfg2.win 3).blk t).view.set ↔ ∀ a : Fin 3, win2_3.index t a * S1x197x768.size a ≤ (i a).val ∧ (i a).val < win2_3.index t a * S1x197x768.size a + S1x197x768.size a := by
  show i ∈ ((View.whole main_v20).slice (win2_3.rect t)).set ↔ _
  rw [View.set_slice_whole, Rect.mem_set_unit]
  exact Iff.rfl

/-- Every index of out lies in the block of the point of its row. -/
theorem cover2 (i : S64x197x768.Idx) :
    ∃ t : Fin cfg2.N, (cfg2.win 3).flush t = true ∧ i ∈ ((cfg2.win 3).blk t).view.set := by
  have h0 : (i 0).val < 64 := (i 0).isLt
  have h1 : (i 1).val < 197 := (i 1).isLt
  have h2 : (i 2).val < 768 := (i 2).isLt
  obtain ⟨t, ht⟩ : ∃ t : Fin cfg2.N, t.val = (i 0).val := ⟨⟨(i 0).val, h0⟩, rfl⟩
  refine ⟨t, flush2_3 t, ?_⟩
  rw [mem_blk2]
  obtain ⟨-, -, -, -, -, -, e0, e1, e2⟩ := index2 t
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 197 ≤ (i 1).val ∧ (i 1).val < win2_3.index t (1 : Fin 3) * 197 + 197; omega
  | ⟨2, _⟩ => show win2_3.index t (2 : Fin 3) * 768 ≤ (i 2).val ∧ (i 2).val < win2_3.index t (2 : Fin 3) * 768 + 768; omega

/-- THE ARRAY after the third region: the projection of a by the weight, plus the bias. -/
theorem region2_array (hp : Pay2) (c : Dev nD) :
    (dat2 (F := Ideal) V c).arrAt 3 cfg2.N = Cert.Attn.projBiasArr (V c main_v19) (V c main_v3) (V c main_arg3) :=
  (dat2 (F := Ideal) V c).arrAt_eq_of_cover 3 _ (fun t _ => flushed2 V hp c t) cover2

end Cert.KernelIdeal.Val

end
-- ==== Proof.RefProj.lean ====
/-
  The reference's two projections read at an entry.

  Its first dot_general contracts x's feature axis with the qkv weight's second axis: entry (b,n,e) is the sum over d of
  x(b,n,d) · w(e,d), the row of x against the transposed weight. Its last dot_general does the same with the merged heads
  and the output weight, and the bias vector, broadcast over batch and sequence, is added: entry (b,n,c) is the sum over e
  of a(b,n,e) · w(c,e), plus bias(c).
-/
import proofs.«121623_j47811575939170_1_alg».proof.Proof.Gen.ReferenceIdeal.Read
import proofs.«121623_j47811575939170_1_alg».proof.Proof.Spec
noncomputable section
namespace Cert.ReferenceIdeal.RefVal
open Idealize.ShloMosaic Idealize.ShloMosaic.ValueIdx Cert.ReferenceIdeal Cert.ReferenceIdeal.Read

/-- The first projection: entry (b,n,e) is Σ_d x(b,n,d) · w(e,d), the input row against the transposed weight. -/
theorem ref_qkv (x0 : FVec Ideal S64x197x768 .f32) (x1 : FVec Ideal S2304x768 .f32) :
    val_main_v0 (F := Ideal) x0 x1 = Cert.Attn.qkvArr x0 x1 := by
  funext y
  obtain ⟨b, n, e, rfl⟩ : ∃ (b : Fin 64) (n : Fin 197) (e : Fin 2304), y = ix3 b n e := ⟨y 0, y 1, y 2, eq_ix3 y⟩
  rw [val_main_v0_apply]
  show _ = ∑ d : Fin 768, x0 (ix3 b n d) * x1 (ix2 e d)
  refine Finset.sum_congr rfl fun d _ => ?_
  have el : lidx_main_v0 (ix3 b n e) d = ix3 b n d :=
    funext fun a => Fin.ext (by match a with | ⟨0, _⟩ => rfl | ⟨1, _⟩ => rfl | ⟨2, _⟩ => rfl)
  have er : ridx_main_v0 (ix3 b n e) d = ix2 e d :=
    funext fun a => Fin.ext (by match a with | ⟨0, _⟩ => rfl | ⟨1, _⟩ => rfl)
  rw [el, er]

/-- The output projection: entry (b,n,c) is Σ_e a(b,n,e) · w(c,e) + bias(c), with a the merged heads. -/
theorem ref_out (x0 : FVec Ideal S64x197x768 .f32) (x1 : FVec Ideal S2304x768 .f32) (x2 : FVec Ideal S768x768 .f32) (x3 : FVec Ideal S768 .f32) :
    val_main_v30 (F := Ideal) x0 x1 x2 x3
      = Cert.Attn.projBiasArr (val_main_v26 (F := Ideal) x0 x1) (Cert.Attn.transposeArr 768 768 x2) x3 := by
  funext y
  obtain ⟨b, n, c, rfl⟩ : ∃ (b : Fin 64) (n : Fin 197) (c : Fin 768), y = ix3 b n c := ⟨y 0, y 1, y 2, eq_ix3 y⟩
  rw [val_main_v30_apply, val_main_v27_apply, val_main_v29_apply, val_main_v28_apply]
  generalize val_main_v26 (F := Ideal) x0 x1 = a
  show _ = (∑ k : Fin 768, a (ix3 b n k) * x2 (ix2 c k)) + x3 (ix1 c)
  have eb : idx_main_v28 (idx_main_v29 (ix3 b n c)) = ix1 c :=
    funext fun i => Fin.ext (by match i with | ⟨0, _⟩ => rfl)
  have es : (∑ k : Fin 768, a (lidx_main_v27 (ix3 b n c) k) * x2 (ridx_main_v27 (ix3 b n c) k))
      = ∑ k : Fin 768, a (ix3 b n k) * x2 (ix2 c k) :=
    Finset.sum_congr rfl fun k _ => by
      have el : lidx_main_v27 (ix3 b n c) k = ix3 b n k :=
        funext fun i => Fin.ext (by match i with | ⟨0, _⟩ => rfl | ⟨1, _⟩ => rfl | ⟨2, _⟩ => rfl)
      have er : ridx_main_v27 (ix3 b n c) k = ix2 c k :=
        funext fun i => Fin.ext (by match i with | ⟨0, _⟩ => rfl | ⟨1, _⟩ => rfl)
      rw [el, er]
  rw [eb, es]
  rfl

end Cert.ReferenceIdeal.RefVal
end
-- ==== Proof.RefAttn.lean ====
/-
  The reference's attention, read at an entry.

  With q, k, v : [64,12,197,64] the three head arrays, the reference computes, for batch b, head h, query row i:
    s(i,j) = (Σ_d q(b,h,i,d) · k(b,h,j,d)) · (the word of 1/8)          a contraction, then a product with a broadcast word;
    m(i)   = max(-∞, fold of max from -∞ over j of s(i,j))              a maximum over the last axis, once more against -∞;
    e(i,j) = exp(s(i,j) - m(i))                                          m broadcast back along the last axis;
    z(i)   = 0 + Σ_j e(i,j)                                              a sum over the last axis from the zero word;
    p(i,j) = e(i,j) / z(i)                                               z broadcast back along the last axis;
    o(i,d) = Σ_j p(i,j) · v(b,h,j,d)                                     a contraction.
  Each step is read at the literal coordinates (b,h,i,j) and identified with the row functions of the specification
  (score, rowMax, rowExp, rowSoftmax, headOut); the two float words stay unevaluated on both sides.
-/
import proofs.«121623_j47811575939170_1_alg».proof.Proof.Gen.ReferenceIdeal.Read
import proofs.«121623_j47811575939170_1_alg».proof.Proof.Spec
import Idealize.ShloMosaic.PureOps.Reduce
noncomputable section
namespace Cert.ReferenceIdeal.RefVal
open Idealize.ShloMosaic Idealize.ShloMosaic.ValueIdx Cert.ReferenceIdeal Cert.ReferenceIdeal.Read

namespace Attn

/-! ## The composed index functions at literal coordinates -/

/-- The first contraction reads q at (b,h,i,·). -/
theorem lidx10 (b : Fin 64) (h : Fin 12) (i j : Fin 197) (k : Fin 64) :
    lidx_main_v10 (ix4 b h i j) k = ix4 b h i k :=
  funext fun a => Fin.ext (by match a with | ⟨0, _⟩ => rfl | ⟨1, _⟩ => rfl | ⟨2, _⟩ => rfl | ⟨3, _⟩ => rfl)
/-- The first contraction reads k at (b,h,j,·). -/
theorem ridx10 (b : Fin 64) (h : Fin 12) (i j : Fin 197) (k : Fin 64) :
    ridx_main_v10 (ix4 b h i j) k = ix4 b h j k :=
  funext fun a => Fin.ext (by match a with | ⟨0, _⟩ => rfl | ⟨1, _⟩ => rfl | ⟨2, _⟩ => rfl | ⟨3, _⟩ => rfl)
/-- The row maximum broadcast back along the last axis is read at (b,h,i). -/
theorem idx1617 (b : Fin 64) (h : Fin 12) (i j : Fin 197) :
    idx_main_v16 (idx_main_v17 (ix4 b h i j)) = ix3 b h i :=
  funext fun a => Fin.ext (by match a with | ⟨0, _⟩ => rfl | ⟨1, _⟩ => rfl | ⟨2, _⟩ => rfl)
/-- The row sum broadcast back along the last axis is read at (b,h,i). -/
theorem idx2122 (b : Fin 64) (h : Fin 12) (i j : Fin 197) :
    idx_main_v21 (idx_main_v22 (ix4 b h i j)) = ix3 b h i :=
  funext fun a => Fin.ext (by match a with | ⟨0, _⟩ => rfl | ⟨1, _⟩ => rfl | ⟨2, _⟩ => rfl)
/-- The sum over the last axis reads its operand at (b,h,i,k). -/
theorem idx20 (b : Fin 64) (h : Fin 12) (i k : Fin 197) :
    idx_main_v20 (ix3 b h i) k = ix4 b h i k :=
  funext fun a => Fin.ext (by match a with | ⟨0, _⟩ => rfl | ⟨1, _⟩ => rfl | ⟨2, _⟩ => rfl | ⟨3, _⟩ => rfl)
/-- The second contraction reads the softmax at (b,h,i,·). -/
theorem lidx24 (b : Fin 64) (h : Fin 12) (i : Fin 197) (d : Fin 64) (k : Fin 197) :
    lidx_main_v24 (ix4 b h i d) k = ix4 b h i k :=
  funext fun a => Fin.ext (by match a with | ⟨0, _⟩ => rfl | ⟨1, _⟩ => rfl | ⟨2, _⟩ => rfl | ⟨3, _⟩ => rfl)
/-- The second contraction reads v at (b,h,·,d). -/
theorem ridx24 (b : Fin 64) (h : Fin 12) (i : Fin 197) (d : Fin 64) (k : Fin 197) :
    ridx_main_v24 (ix4 b h i d) k = ix4 b h k d :=
  funext fun a => Fin.ext (by match a with | ⟨0, _⟩ => rfl | ⟨1, _⟩ => rfl | ⟨2, _⟩ => rfl | ⟨3, _⟩ => rfl)

/-! ## The steps, one row at a time -/

section
variable (x0 : FVec Ideal S64x197x768 .f32) (x1 : FVec Ideal S2304x768 .f32)

/-- The scaled scores: entry (b,h,i,j) is the score of query row i against key row j in head (b,h). -/
theorem v12_eq (b : Fin 64) (h : Fin 12) (i j : Fin 197) :
    val_main_v12 (F := Ideal) x0 x1 (ix4 b h i j)
      = Cert.Attn.score (fun i d => val_main_v5 (F := Ideal) x0 x1 (ix4 b h i d))
          (fun j d => val_main_v7 (F := Ideal) x0 x1 (ix4 b h j d)) i j := by
  rw [val_main_v12_apply, val_main_v10_apply, val_main_v11_apply, val_main_cst_apply]
  unfold Cert.Attn.score
  refine congrArg (· * _) (Finset.sum_congr rfl fun k _ => ?_)
  rw [lidx10, ridx10]

/-- The maximum over the last axis: a commutative, associative fold from the word of -∞ over the row's entries. -/
theorem v13_eq (b : Fin 64) (h : Fin 12) (i : Fin 197) :
    val_main_v13 (F := Ideal) x0 x1 (ix3 b h i)
      = (Finset.univ : Finset (Fin 197)).fold max Cert.Attn.negInf
          (fun j => val_main_v12 (F := Ideal) x0 x1 (ix4 b h i j)) := by
  unfold val_main_v13
  generalize val_main_v12 (F := Ideal) x0 x1 = y
  refine (Host.reduce_eq_fold_single (FloatOps.maximumf (F := Ideal) (φ := .f32)) y (val_main_cst_0 (F := Ideal))
    Facts₀.reducesTo_S64x12x197x197_S64x12x197_d3 (by decide) Facts₀.h_S_ (ix3 b h i)).trans ?_
  refine congrArg (Finset.fold max Cert.Attn.negInf · Finset.univ) (funext fun j => ?_)
  exact congrArg y (funext fun a => Fin.ext (by match a with | ⟨0, _⟩ => rfl | ⟨1, _⟩ => rfl | ⟨2, _⟩ => rfl | ⟨3, _⟩ => rfl))

/-- The row of scaled scores of query row i in head (b,h). -/
abbrev row (b : Fin 64) (h : Fin 12) (i : Fin 197) : Fin 197 → EReal :=
  fun j => val_main_v12 (F := Ideal) x0 x1 (ix4 b h i j)

/-- The row's maximum, once more against -∞. -/
theorem v15_eq (b : Fin 64) (h : Fin 12) (i : Fin 197) :
    val_main_v15 (F := Ideal) x0 x1 (ix3 b h i) = Cert.Attn.rowMax (row x0 x1 b h i) := by
  rw [val_main_v15_apply, val_main_v14_apply, val_main_cst_1_apply, v13_eq]
  rfl

/-- The shifted exponentials of the row. -/
theorem v19_eq (b : Fin 64) (h : Fin 12) (i j : Fin 197) :
    val_main_v19 (F := Ideal) x0 x1 (ix4 b h i j) = Cert.Attn.rowExp (row x0 x1 b h i) j := by
  rw [val_main_v19_apply, val_main_v18_apply, val_main_v17_apply, val_main_v16_apply, idx1617, v15_eq]
  rfl

/-- The row's sum of exponentials: the zero word is 0, and 0 + Σ = Σ. -/
theorem v20_eq (b : Fin 64) (h : Fin 12) (i : Fin 197) :
    val_main_v20 (F := Ideal) x0 x1 (ix3 b h i) = ∑ j : Fin 197, Cert.Attn.rowExp (row x0 x1 b h i) j := by
  rw [val_main_v20_apply, val_main_cst_2_apply]
  refine (congrArg (· + _) (Ideal.ofBits_zero_f32)).trans ((zero_add _).trans (Finset.sum_congr rfl fun k _ => ?_))
  rw [idx20, v19_eq]

/-- The softmax of the row. -/
theorem v23_eq (b : Fin 64) (h : Fin 12) (i j : Fin 197) :
    val_main_v23 (F := Ideal) x0 x1 (ix4 b h i j) = Cert.Attn.rowSoftmax (row x0 x1 b h i) j := by
  rw [val_main_v23_apply, val_main_v22_apply, val_main_v21_apply, idx2122, v20_eq, v19_eq]
  rfl

end

end Attn

open Attn in
/-- The reference's attention output is the specification's attention of its three head arrays. -/
theorem ref_attn (x0 : FVec Ideal S64x197x768 .f32) (x1 : FVec Ideal S2304x768 .f32) :
    val_main_v24 (F := Ideal) x0 x1
      = Cert.Attn.attnArr (val_main_v5 (F := Ideal) x0 x1) (val_main_v7 (F := Ideal) x0 x1) (val_main_v9 (F := Ideal) x0 x1) := by
  funext y
  obtain ⟨b, h, i, d, rfl⟩ : ∃ (b : Fin 64) (h : Fin 12) (i : Fin 197) (d : Fin 64), y = ix4 b h i d :=
    ⟨y 0, y 1, y 2, y 3, eq_ix4 y⟩
  rw [Cert.Attn.attnArr_apply, val_main_v24_apply]
  unfold Cert.Attn.headOut
  refine Finset.sum_congr rfl fun j _ => ?_
  rw [lidx24, ridx24, v23_eq]
  refine congrArg (fun r => Cert.Attn.rowSoftmax r j * _) (funext fun j' => ?_)
  exact v12_eq x0 x1 b h i j'

end Cert.ReferenceIdeal.RefVal
end
-- ==== Proof.RefValue.lean ====
/-
  The reference's result as the one function of its arguments: its first dot_general is the projection against the
  transposed qkv weight, its slices / reshapes / transposes are the layout steps the specification itself is written
  with, its softmax-attention chain is attention head by head, and its last dot_general plus the broadcast bias is the
  output projection. So the term the reference's run ends at is `Cert.Attn.mha` of the four arguments.
-/
import proofs.«121623_j47811575939170_1_alg».proof.Proof.RefProj
import proofs.«121623_j47811575939170_1_alg».proof.Proof.RefAttn

noncomputable section

namespace Cert.ReferenceIdeal.RefVal

open Idealize.ShloMosaic Idealize.ShloMosaic.ValueIdx Cert.ReferenceIdeal Cert.ReferenceIdeal.Read

/-- The reference computes `mha`. -/
theorem ref_value (x0 : FVec Ideal S64x197x768 .f32) (x1 : FVec Ideal S2304x768 .f32) (x2 : FVec Ideal S768x768 .f32)
    (x3 : FVec Ideal S768 .f32) : val_main_v30 (F := Ideal) x0 x1 x2 x3 = Cert.Attn.mha x0 x1 x2 x3 := by
  rw [ref_out x0 x1 x2 x3]
  show Cert.Attn.projBiasArr (Cert.Attn.mergeArr (val_main_v24 (F := Ideal) x0 x1)) _ _ = _
  rw [ref_attn x0 x1]
  show Cert.Attn.projBiasArr (Cert.Attn.mergeArr (Cert.Attn.attnArr
      (Cert.Attn.headsArr 0 (val_main_v0 (F := Ideal) x0 x1) (by decide))
      (Cert.Attn.headsArr 768 (val_main_v0 (F := Ideal) x0 x1) (by decide))
      (Cert.Attn.headsArr 1536 (val_main_v0 (F := Ideal) x0 x1) (by decide)))) _ _ = _
  rw [ref_qkv x0 x1]
  rfl

end Cert.ReferenceIdeal.RefVal

end
-- ==== Proof.lean ====
/-
  Multi-head self-attention as three kernel regions, against the plain einsum-and-softmax reference: the certificate.

  Both programs compute one function of (x, w_qkv, w_out, b_out), `Cert.Attn.mha` (Proof/Spec.lean): project x against
  the transposed qkv weight, split the three thirds into 12 heads of 64, attend head by head (scores scaled by 1/8, a
  softmax shifted by the row maximum, the weighted sum of the value rows), merge the heads, project against the
  transposed output weight and add the bias. No law of the extended reals beyond reading each sum, maximum and product
  at an index is needed: the two programs spell the same sums in the same order, and differ only in how the arrays are
  tiled (one batch row per grid point), in the format changes the kernel makes on the way into its matrix products (the
  identity on the extended reals), and in the accumulator the kernel's products start from (the zero word).

  The kernel side: Proof/KRun.lean (the run with the result array named at the last boundary's contents),
  Proof/Payload02.lean and Proof/Payload1.lean (each region's body read at an entry), Proof/Blocks.lean (from a region's
  blocks to its whole array), Proof/KHost.lean (the layout steps between the regions: the result is `mha`).
  The reference side: the generated run and read-at-an-index modules, Proof/RefProj.lean and Proof/RefAttn.lean (its two
  projections and its attention read at an entry), Proof/RefValue.lean (its result is `mha`).
  The frames of the two kernel programs are the generated ones; the reference's frame is its run with the result dropped;
  the idealized kernel is the kernel's own text read over the extended reals (no rewrite), so `preserves` is trivial.
-/
import proofs.«121623_j47811575939170_1_alg».proof.Defs
import proofs.«121623_j47811575939170_1_alg».proof.Proof.Gen.Kernel
import proofs.«121623_j47811575939170_1_alg».proof.Proof.Gen.Kernel.Skeleton
import proofs.«121623_j47811575939170_1_alg».proof.Proof.Gen.Kernel.Launch
import proofs.«121623_j47811575939170_1_alg».proof.Proof.Gen.Kernel.Points
import proofs.«121623_j47811575939170_1_alg».proof.Proof.Gen.Kernel.Frame
import proofs.«121623_j47811575939170_1_alg».proof.Proof.Gen.KernelIdeal
import proofs.«121623_j47811575939170_1_alg».proof.Proof.Gen.KernelIdeal.Skeleton
import proofs.«121623_j47811575939170_1_alg».proof.Proof.Gen.KernelIdeal.Launch
import proofs.«121623_j47811575939170_1_alg».proof.Proof.Gen.KernelIdeal.Points
import proofs.«121623_j47811575939170_1_alg».proof.Proof.Gen.KernelIdeal.Frame
import proofs.«121623_j47811575939170_1_alg».proof.Proof.Gen.ReferenceIdeal
import proofs.«121623_j47811575939170_1_alg».proof.Proof.Gen.Pre_finite_inputs
import proofs.«121623_j47811575939170_1_alg».proof.Proof.Gen.ReferenceIdeal.Run
import proofs.«121623_j47811575939170_1_alg».proof.Proof.Gen.ReferenceIdeal.Read
import proofs.«121623_j47811575939170_1_alg».proof.Proof.KRun
import proofs.«121623_j47811575939170_1_alg».proof.Proof.KHost
import proofs.«121623_j47811575939170_1_alg».proof.Proof.Payload02
import proofs.«121623_j47811575939170_1_alg».proof.Proof.Payload1
import proofs.«121623_j47811575939170_1_alg».proof.Proof.Blocks
import proofs.«121623_j47811575939170_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Gen in
/-- From memories agreeing on the arguments both programs end with the result array at `mha` of the arguments. -/
theorem algebraic : Cert.algebraic_KernelIdeal_ReferenceIdeal := by
  intro m ρ m' ρ' _ hagree
  refine ⟨fun c => Cert.Attn.mha (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run (Cert.KernelIdeal.defs (F := Ideal)) _ _).mono
      (fun r h c => ⟨(h c).1.trans (Cert.KernelIdeal.Val.kernel_value m ρ
          (fun V c => Cert.KernelIdeal.Val.region0_array V Cert.KernelIdeal.Val.pay0 c)
          (fun V c => Cert.KernelIdeal.Val.region1_array V Cert.KernelIdeal.Val.pay1 c)
          (fun V c => Cert.KernelIdeal.Val.region2_array V Cert.KernelIdeal.Val.pay2 c) c), (h c).2⟩)
      (Cert.KernelIdeal.Val.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v30_eq, Cert.ReferenceIdeal.RefVal.ref_value,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
